-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "a_exact_inv_2048" .f32 0x3A000000#32 ((1 / 2048 : ℝ) : EReal)
  ∧ IdealRules.named_const.Statement Cert.KernelIdeal.κ "a_exact_inv_2048" .f32 0x3A000000#32 ((1 / 2048 : ℝ) : EReal)
  ∧ IdealRules.named_const.Statement Cert.KernelIdeal.κ "inv_2047" .f32 0x3A001002#32 ((1 / 2047 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x64 : Shape := ⟨2, ![2048, 64]⟩
abbrev S256x128 : Shape := ⟨2, ![256, 128]⟩
abbrev S128 : Shape := ⟨1, ![128]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S2048x2048 .f32) (main_arg1 : FVec F S2048x64 .f32) (main_arg2 : FVec F S256x128 .f32) (main_arg3 : FVec F S128 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S2048x2048 : Shape := ⟨2, ![2048, 2048]⟩
abbrev S2048x64 : Shape := ⟨2, ![2048, 64]⟩
abbrev S256x128 : Shape := ⟨2, ![256, 128]⟩
abbrev S128 : Shape := ⟨1, ![128]⟩
abbrev S1x128 : Shape := ⟨2, ![1, 128]⟩
abbrev S64x2048 : Shape := ⟨2, ![64, 2048]⟩
abbrev S2048x128 : Shape := ⟨2, ![2048, 128]⟩
abbrev S128x256 : Shape := ⟨2, ![128, 256]⟩
abbrev S256x64 : Shape := ⟨2, ![256, 64]⟩
abbrev S64x256 : Shape := ⟨2, ![64, 256]⟩
abbrev S128x128 : Shape := ⟨2, ![128, 128]⟩
abbrev S128x64 : Shape := ⟨2, ![128, 64]⟩
abbrev S128x1x256 : Shape := ⟨3, ![128, 1, 256]⟩
abbrev S1x64x256 : Shape := ⟨3, ![1, 64, 256]⟩
abbrev S128x64x256 : Shape := ⟨3, ![128, 64, 256]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x64, .f32⟩
  | .hbm, ⟨2, _⟩ => ⟨S256x128, .f32⟩
  | .hbm, ⟨3, _⟩ => ⟨S128, .f32⟩
  | .hbm, ⟨4, _⟩ => ⟨S1x128, .f32⟩
  | .hbm, ⟨5, _⟩ => ⟨S64x2048, .f32⟩
  | .hbm, ⟨6, _⟩ => ⟨S2048x128, .f32⟩
  | .local _ .vmem, ⟨0, _⟩ => ⟨S128x256, .f32⟩
  | .local _ .vmem, ⟨1, _⟩ => ⟨S128x256, .f32⟩
  | .local _ .vmem, ⟨2, _⟩ => ⟨S256x64, .f32⟩
  | .local _ .vmem, ⟨3, _⟩ => ⟨S256x64, .f32⟩
  | .local _ .vmem, ⟨4, _⟩ => ⟨S64x256, .f32⟩
  | .local _ .vmem, ⟨5, _⟩ => ⟨S64x256, .f32⟩
  | .local _ .vmem, ⟨6, _⟩ => ⟨S256x128, .f32⟩
  | .local _ .vmem, ⟨7, _⟩ => ⟨S1x128, .f32⟩
  | .local _ .vmem, ⟨8, _⟩ => ⟨S128x128, .f32⟩
  | .local _ .vmem, ⟨9, _⟩ => ⟨S128x128, .f32⟩
  | .local _ .vmem, ⟨10, _⟩ => ⟨S128x64, .f32⟩
  | .local _ .vmem, ⟨11, _⟩ => ⟨S128x64, .f32⟩
  | .local _ .vmem, ⟨12, _⟩ => ⟨S128x64, .f32⟩
  | .local _ .vmem, ⟨13, _⟩ => ⟨S128x64, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_25 : BitVec 32 := 0#32
  let v44 : BitVec 1 := Scalar.cmpi .ne v43 c0_i32_25
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S128_S1x128 : S128.ShapeCasts S1x128
  transposes_S2048x64_S64x2048_1_0 : S2048x64.Transposes [1, 0] S64x2048
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S128x256_S128x256_0_0 : ∀ a, (![0, 0] : Fin 2 → Nat) a + S128x256.size a ≤ S128x256.size a
  h_S128x256 : 0 < S128x256.numel
  inb_S256x64_S256x64_0_0 : ∀ a, (![0, 0] : Fin 2 → Nat) a + S256x64.size a ≤ S256x64.size a
  h_S256x64 : 0 < S256x64.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  bitsLt_bf16_f32 : FTy.bits .bf16 < FTy.bits .f32
  shapeCasts_S128x256_S128x1x256 : S128x256.ShapeCasts S128x1x256
  shapeCasts_S64x256_S1x64x256 : S64x256.ShapeCasts S1x64x256
  broadcasts_S128x1x256_S128x64x256 : S128x1x256.Broadcasts S128x64x256
  broadcasts_S1x64x256_S128x64x256 : S1x64x256.Broadcasts S128x64x256
  reduces_S128x64x256_S128x64 : S128x64x256.Reduces [2] S128x64
  concatenates_S128x64_S128x64_S128x64_S128x64_S128x256_d1 : Shape.Concatenates [S128x64, S128x64, S128x64, S128x64] S128x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  dot_S128x256_S256x64_S128x64_1_0_0_1_n_n_wf : DotDims.WF S128x256 S256x64 S128x64 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S2048x2048.size a
  hwx0_0 : ∀ i : grid0.Coords, EltTy.bits .f32 = 32 ∨ (Rect.block (s := S2048x2048) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S2048x64.size a
  hwx0_1 : ∀ i : grid0.Coords, EltTy.bits .f32 = 32 ∨ (Rect.block (s := S2048x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x2048.size a
  hwx0_2 : ∀ i : grid0.Coords, EltTy.bits .f32 = 32 ∨ (Rect.block (s := S64x2048) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S2048x128.size a
  hwx0_5 : ∀ i : grid0.Coords, EltTy.bits .f32 = 32 ∨ (Rect.block (s := S2048x128) S128x128.size (cc0_transform_5 i) (hinb0_5 i)).WholeWords (EltTy.packing .f32)

variable [Facts₀]

def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2048x2048 : Shape := ⟨2, ![2048, 2048]⟩
abbrev S2048x64 : Shape := ⟨2, ![2048, 64]⟩
abbrev S256x128 : Shape := ⟨2, ![256, 128]⟩
abbrev S128 : Shape := ⟨1, ![128]⟩
abbrev S2048x2048x1 : Shape := ⟨3, ![2048, 2048, 1]⟩
abbrev S1x2048x64 : Shape := ⟨3, ![1, 2048, 64]⟩
abbrev S2048x2048x64 : Shape := ⟨3, ![2048, 2048, 64]⟩
abbrev S_ : Shape := ⟨0, ![]⟩
abbrev S2048x1x64 : Shape := ⟨3, ![2048, 1, 64]⟩
abbrev S2048x256 : Shape := ⟨2, ![2048, 256]⟩
abbrev S2048x128 : Shape := ⟨2, ![2048, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x64, .f32⟩
  | .hbm, ⟨2, _⟩ => ⟨S256x128, .f32⟩
  | .hbm, ⟨3, _⟩ => ⟨S128, .f32⟩
  | .hbm, ⟨4, _⟩ => ⟨S2048x2048x1, .f32⟩
  | .hbm, ⟨5, _⟩ => ⟨S1x2048x64, .f32⟩
  | .hbm, ⟨6, _⟩ => ⟨S2048x2048x64, .f32⟩
  | .hbm, ⟨7, _⟩ => ⟨S2048x2048x64, .f32⟩
  | .hbm, ⟨8, _⟩ => ⟨S2048x2048x64, .f32⟩
  | .hbm, ⟨9, _⟩ => ⟨S_, .f32⟩
  | .hbm, ⟨10, _⟩ => ⟨S2048x64, .f32⟩
  | .hbm, ⟨11, _⟩ => ⟨S_, .f32⟩
  | .hbm, ⟨12, _⟩ => ⟨S2048x64, .f32⟩
  | .hbm, ⟨13, _⟩ => ⟨S2048x64, .f32⟩
  | .hbm, ⟨14, _⟩ => ⟨S_, .f32⟩
  | .hbm, ⟨15, _⟩ => ⟨S2048x64, .f32⟩
  | .hbm, ⟨16, _⟩ => ⟨S_, .f32⟩
  | .hbm, ⟨17, _⟩ => ⟨S2048x64, .f32⟩
  | .hbm, ⟨18, _⟩ => ⟨S_, .i32⟩
  | .hbm, ⟨19, _⟩ => ⟨S_, .f32⟩
  | .hbm, ⟨20, _⟩ => ⟨S2048x64, .f32⟩
  | .hbm, ⟨21, _⟩ => ⟨S2048x1x64, .f32⟩
  | .hbm, ⟨22, _⟩ => ⟨S_, .f32⟩
  | .hbm, ⟨23, _⟩ => ⟨S2048x1x64, .f32⟩
  | .hbm, ⟨24, _⟩ => ⟨S2048x1x64, .f32⟩
  | .hbm, ⟨25, _⟩ => ⟨S2048x2048x64, .f32⟩
  | .hbm, ⟨26, _⟩ => ⟨S2048x2048x64, .f32⟩
  | .hbm, ⟨27, _⟩ => ⟨S2048x2048x64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S2048x64, .f32⟩
  | .hbm, ⟨40, _⟩ => ⟨S2048x64, .f32⟩
  | .hbm, ⟨41, _⟩ => ⟨S2048x64, .f32⟩
  | .hbm, ⟨42, _⟩ => ⟨S2048x256, .f32⟩
  | .hbm, ⟨43, _⟩ => ⟨S2048x128, .f32⟩
  | .hbm, ⟨44, _⟩ => ⟨S1x128, .f32⟩
  | .hbm, ⟨45, _⟩ => ⟨S2048x128, .f32⟩
  | .hbm, ⟨46, _⟩ => ⟨S2048x128, .f32⟩
  | .hbm, ⟨47, _⟩ => ⟨S2048x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_c : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_cst_0 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_cst_1 : Ref sig .tc := ⟨.hbm, 29, rfl⟩
abbrev main_call0_call0_v8 : Ref sig .tc := ⟨.hbm, 30, rfl⟩
abbrev main_call0_call0_cst_2 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_cst_3 : Ref sig .tc := ⟨.hbm, 35, rfl⟩
abbrev main_call0_call0_v12 : Ref sig .tc := ⟨.hbm, 36, rfl⟩
abbrev main_call0_call0_cst_4 : Ref sig .tc := ⟨.hbm, 37, rfl⟩
abbrev main_call0_call0_call0_v0 : Ref sig .tc := ⟨.hbm, 38, rfl⟩
abbrev main_call0_call0_call0_v1 : Ref sig .tc := ⟨.hbm, 39, rfl⟩
abbrev main_call0_v0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩

abbrev nD : Nat := 1
abbrev τ : Topo := Topo.v7x

variable {F : FTy → Type} [FloatOps F]

class Facts₀ : Prop where
  bcast_S2048x2048_S2048x2048x1_0_1 : S2048x2048.BroadcastsInDim S2048x2048x1 (![0, 1] : Fin 2 → Fin S2048x2048x1.rank)
  bcast_S2048x64_S1x2048x64_1_2 : S2048x64.BroadcastsInDim S1x2048x64 (![1, 2] : Fin 2 → Fin S1x2048x64.rank)
  bcast_S2048x2048x1_S2048x2048x64_0_1_2 : S2048x2048x1.BroadcastsInDim S2048x2048x64 (![0, 1, 2] : Fin 3 → Fin S2048x2048x64.rank)
  bcast_S1x2048x64_S2048x2048x64_0_1_2 : S1x2048x64.BroadcastsInDim S2048x2048x64 (![0, 1, 2] : Fin 3 → Fin S2048x2048x64.rank)
  reducesTo_S2048x2048x64_S2048x64_d1 : S2048x2048x64.ReducesTo [1] S2048x64
  h_S_ : 0 < S_.numel
  bcast_S_S2048x64 : S_.BroadcastsInDim S2048x64 (![] : Fin 0 → Fin S2048x64.rank)
  bcast_S2048x64_S2048x1x64_0_2 : S2048x64.BroadcastsInDim S2048x1x64 (![0, 2] : Fin 2 → Fin S2048x1x64.rank)
  bcast_S_S2048x1x64 : S_.BroadcastsInDim S2048x1x64 (![] : Fin 0 → Fin S2048x1x64.rank)
  bcast_S2048x1x64_S2048x2048x64_0_1_2 : S2048x1x64.BroadcastsInDim S2048x2048x64 (![0, 1, 2] : Fin 3 → Fin S2048x2048x64.rank)
  concatenates_S2048x64_S2048x64_S2048x64_S2048x64_S2048x256_d1 : Shape.Concatenates [S2048x64, S2048x64, S2048x64, S2048x64] S2048x256 1
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  dot_S2048x256_S256x128_S2048x128_1_0_0_1_n_n_wf : DotDims.WF S2048x256 S256x128 S2048x128 [1] [0] [0] [1] [] []

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

class Facts : Prop extends Facts₀ where

variable [Facts]
-- ==== Proof.RefRun.lean ====
/-
  The reference program as a straight line.

  Its @main is a sequence of host operations with one nested call chain: the standard deviation calls the variance, which
  calls the selection helper.  A call means its callee's body substituted, so with the three bodies unfolded at their call
  sites @main is one list of forty-four operations, each writing one buffer of its own.  Every weakly fair execution then
  terminates with each buffer at the operations' fold over the launch contents.
-/
import proofs.«146669_j9036611191395_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: fifteen of its own (the three-axis table of products, its sum, mean,
    supremum and infimum along the middle axis, the integer one), the variance's nineteen (the mean again, the centred
    squares, their sum, the divisor 2048 - 1, the quotient, the comparison of the divisor with zero), the selection's three,
    the square root, and @main's last six (the four tables side by side, the product with the weights, the bias, tanh). -/
abbrev ops : List (HloOp τ sig (Elt F)) :=
  [ unary main_arg0 main_v0 (broadcastInDim S2048x2048x1 ![0, 1] bcast_S2048x2048_S2048x2048x1_0_1 : (⟨S2048x2048, .f32⟩ : BufTy).Contents (Elt F) → (⟨S2048x2048x1, .f32⟩ : BufTy).Contents (Elt F)),
    unary main_arg1 main_v1 (broadcastInDim S1x2048x64 ![1, 2] bcast_S2048x64_S1x2048x64_1_2 : (⟨S2048x64, .f32⟩ : BufTy).Contents (Elt F) → (⟨S1x2048x64, .f32⟩ : BufTy).Contents (Elt F)),
    unary main_v0 main_v2 (broadcastInDim S2048x2048x64 ![0, 1, 2] bcast_S2048x2048x1_S2048x2048x64_0_1_2 : (⟨S2048x2048x1, .f32⟩ : BufTy).Contents (Elt F) → (⟨S2048x2048x64, .f32⟩ : BufTy).Contents (Elt F)),
    unary main_v1 main_v3 (broadcastInDim S2048x2048x64 ![0, 1, 2] bcast_S1x2048x64_S2048x2048x64_0_1_2 : (⟨S1x2048x64, .f32⟩ : BufTy).Contents (Elt F) → (⟨S2048x2048x64, .f32⟩ : BufTy).Contents (Elt F)),
    binary main_v2 main_v3 main_v4 (mulf : (⟨S2048x2048x64, .f32⟩ : BufTy).Contents (Elt F) → (⟨S2048x2048x64, .f32⟩ : BufTy).Contents (Elt F) → (⟨S2048x2048x64, .f32⟩ : BufTy).Contents (Elt F)),
    nullary main_cst (constant S_ .f32 0x00000000#32),
    binary main_v4 main_cst main_v5 ((fun x v => Host.reduceAdd x v reducesTo_S2048x2048x64_S2048x64_d1 h_S_) : (⟨S2048x2048x64, .f32⟩ : BufTy).Contents (Elt F) → (⟨S_, .f32⟩ : BufTy).Contents (Elt F) → (⟨S2048x64, .f32⟩ : BufTy).Contents (Elt F)),
    nullary main_cst_0 (constant S_ .f32 0x45000000#32),
    unary main_cst_0 main_v6 (broadcastInDim S2048x64 ![] bcast_S_S2048x64 : (⟨S_, .f32⟩ : BufTy).Contents (Elt F) → (⟨S2048x64, .f32⟩ : BufTy).Contents (Elt F)),
    binary main_v5 main_v6 main_v7 (Host.divf : (⟨S2048x64, .f32⟩ : BufTy).Contents (Elt F) → (⟨S2048x64, .f32⟩ : BufTy).Contents (Elt F) → (⟨S2048x64, .f32⟩ : BufTy).Contents (Elt F)),
    nullary main_cst_1 (constant S_ .f32 0xFF800000#32),
    binary main_v4 main_cst_1 main_v8 ((fun x v => Host.reduce FloatOps.maximumf x v reducesTo_S2048x2048x64_S2048x64_d1 h_S_) : (⟨S2048x2048x64, .f32⟩ : BufTy).Contents (Elt F) → (⟨S_, .f32⟩ : BufTy).Contents (Elt F) → (⟨S2048x64, .f32⟩ : BufTy).Contents (Elt F)),
    nullary main_cst_2 (constant S_ .f32 0x7F800000#32),
    binary main_v4 main_cst_2 main_v9 ((fun x v => Host.reduce FloatOps.minimumf x v reducesTo_S2048x2048x64_S2048x64_d1 h_S_) : (⟨S2048x2048x64, .f32⟩ : BufTy).Contents (Elt F) → (⟨S_, .f32⟩ : BufTy).Contents (Elt F) → (⟨S2048x64, .f32⟩ : BufTy).Contents (Elt F)),
    nullary main_c (constantI S_ 32 1#32),
    TRef.nullary main_call0_call0.cst (constant S_ .f32 0x00000000#32),
    TRef.binary (.of main_v4) main_call0_call0.cst main_call0_call0.v0 (fun x v => Host.reduceAdd x v reducesTo_S2048x2048x64_S2048x64_d1 h_S_),
    TRef.unary main_call0_call0.v0 main_call0_call0.v1 (broadcastInDim S2048x1x64 ![0, 2] bcast_S2048x64_S2048x1x64_0_2),
    TRef.nullary main_call0_call0.cst_0 (constant S_ .f32 0x45000000#32),
    TRef.unary main_call0_call0.cst_0 main_call0_call0.v2 (broadcastInDim S2048x1x64 ![] bcast_S_S2048x1x64),
    TRef.binary main_call0_call0.v1 main_call0_call0.v2 main_call0_call0.v3 Host.divf,
    TRef.unary main_call0_call0.v3 main_call0_call0.v4 (broadcastInDim S2048x2048x64 ![0, 1, 2] bcast_S2048x1x64_S2048x2048x64_0_1_2),
    TRef.binary (.of main_v4) main_call0_call0.v4 main_call0_call0.v5 subf,
    TRef.binary main_call0_call0.v5 main_call0_call0.v5 main_call0_call0.v6 mulf,
    TRef.unary (.of main_c) main_call0_call0.v7 (sitofp .f32),
    TRef.nullary main_call0_call0.cst_1 (constant S_ .f32 0x45000000#32),
    TRef.binary main_call0_call0.cst_1 main_call0_call0.v7 main_call0_call0.v8 subf,
    TRef.nullary main_call0_call0.cst_2 (constant S_ .f32 0x00000000#32),
    TRef.binary main_call0_call0.v6 main_call0_call0.cst_2 main_call0_call0.v9 (fun x v => Host.reduceAdd x v reducesTo_S2048x2048x64_S2048x64_d1 h_S_),
    TRef.unary main_call0_call0.v8 main_call0_call0.v10 (broadcastInDim S2048x64 ![] bcast_S_S2048x64),
    TRef.binary main_call0_call0.v9 main_call0_call0.v10 main_call0_call0.v11 Host.divf,
    TRef.nullary main_call0_call0.cst_3 (constant S_ .f32 0x00000000#32),
    TRef.binary main_call0_call0.v8 main_call0_call0.cst_3 main_call0_call0.v12 (cmpf .ogt),
    TRef.nullary main_call0_call0.cst_4 (constant S_ .f32 0x7FC00000#32),
    TRef.unary main_call0_call0.cst_4 main_call0_call0_call0.v0 id,
    TRef.unary main_call0_call0_call0.v0 main_call0_call0_call0.v1 (broadcastInDim S2048x64 ![] bcast_S_S2048x64),
    TRef.ternary main_call0_call0.v12 main_call0_call0.v11 main_call0_call0_call0.v1 main_call0_call0_call0.v2 (fun p a b => select (broadcastInDim S2048x64 ![] bcast_S_S2048x64 p) a b),
    TRef.unary main_call0_call0_call0.v2 main_call0.v1 Host.sqrt,
    nary ![main_v7, main_v8, main_v9, main_v10] main_v11 (fun u => concatenate S2048x256 1 [⟨S2048x64, u 0⟩, ⟨S2048x64, u 1⟩, ⟨S2048x64, u 2⟩, ⟨S2048x64, u 3⟩] concatenates_S2048x64_S2048x64_S2048x64_S2048x64_S2048x256_d1),
    binary main_v11 main_arg2 main_v12 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    unary main_arg3 main_v13 (broadcastInDim S1x128 ![1] bcast_S128_S1x128_1 : (⟨S128, .f32⟩ : BufTy).Contents (Elt F) → (⟨S1x128, .f32⟩ : BufTy).Contents (Elt F)),
    unary main_v13 main_v14 (broadcastInDim S2048x128 ![0, 1] bcast_S1x128_S2048x128_0_1 : (⟨S1x128, .f32⟩ : BufTy).Contents (Elt F) → (⟨S2048x128, .f32⟩ : BufTy).Contents (Elt F)),
    binary main_v12 main_v14 main_v15 (addf : (⟨S2048x128, .f32⟩ : BufTy).Contents (Elt F) → (⟨S2048x128, .f32⟩ : BufTy).Contents (Elt F) → (⟨S2048x128, .f32⟩ : BufTy).Contents (Elt F)),
    unary main_v15 main_v16 (Host.tanh : (⟨S2048x128, .f32⟩ : BufTy).Contents (Elt F) → (⟨S2048x128, .f32⟩ : BufTy).Contents (Elt F)) ]

-- forty-four binds re-associated: the rewrite under the chain recurses once per statement
set_option maxRecDepth 1024 in
/-- @main is that straight line: the three functions' definitions unfolded at their calls and the records at their
    fields, both sides are one chain of steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub ..,
    nullary_bufs_sub .., binary_bufs_sub .., nullary_bufs_sub .., unary_bufs_sub .., binary_bufs_sub ..,
    nullary_bufs_sub .., binary_bufs_sub .., nullary_bufs_sub .., binary_bufs_sub .., nullary_bufs_sub ..,
    nullary_bufs_sub .., binary_bufs_sub .., unary_bufs_sub .., nullary_bufs_sub .., unary_bufs_sub ..,
    binary_bufs_sub .., unary_bufs_sub .., binary_bufs_sub .., binary_bufs_sub .., unary_bufs_sub ..,
    nullary_bufs_sub .., binary_bufs_sub .., nullary_bufs_sub .., binary_bufs_sub .., unary_bufs_sub ..,
    binary_bufs_sub .., nullary_bufs_sub .., binary_bufs_sub .., nullary_bufs_sub ..,
    unary_bufs_sub .., unary_bufs_sub .., ternary_bufs_sub ..,
    unary_bufs_sub ..,
    nary_bufs_sub .., binary_bufs_sub .., unary_bufs_sub .., unary_bufs_sub .., binary_bufs_sub .., unary_bufs_sub ..⟩

/-- At the compiled mesh, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Spec.lean ====
/-
  What both programs compute, as functions of the argument arrays read at literal coordinates.

  For a 2048×2048 matrix `A` and a 2048×64 matrix `B`, fix a row `m` and a column `k` and consider the 2048 products
  `A m n * B n k`. Four statistics of that family are taken — its mean, its supremum, its infimum and its unbiased
  standard deviation —, the four 2048×64 tables are laid side by side into a 2048×256 table, and the result is
  `tanh (table · W + b)`.

  The standard deviation is written in two ways: from the centred squares (`spreadCentred`), and from the raw second
  moment with a clamp at zero (`spreadRaw`). On real entries the two agree, by the identity
  `∑ (p - μ)² = ∑ p² - (∑ p)² / N` with `μ = (∑ p) / N`, whose right side is a sum of squares and hence not negative.
-/
import Idealize.ShloMosaic.PureOps.Ideal
import Idealize.ShloMosaic.Lib.ValueIdx

open scoped BigOperators

noncomputable section

namespace Cert.Spec

open Idealize.ShloMosaic Idealize.ShloMosaic.ValueIdx

/-- A table of extended reals with literal extents, read at its two coordinates. -/
abbrev Mat (a b : ℕ) := Fin a → Fin b → EReal

/-- A two-axis array as a table. -/
def mat {a b : ℕ} (x : (⟨2, ![a, b]⟩ : Shape).Idx → EReal) : Mat a b := fun i j => x (ix2 i j)

/-- A one-axis array read at its coordinate. -/
def vec {a : ℕ} (x : (⟨1, ![a]⟩ : Shape).Idx → EReal) : Fin a → EReal := fun i => x (ix1 i)

/-- The `n`-th product of row `m` and column `k`. -/
def term (A : Mat 2048 2048) (B : Mat 2048 64) (m : Fin 2048) (k : Fin 64) (n : Fin 2048) : EReal := A m n * B n k

/-- The sum of the 2048 products. -/
def total (A : Mat 2048 2048) (B : Mat 2048 64) : Mat 2048 64 := fun m k => ∑ n, term A B m k n

/-- Their mean: the sum times 1/2048. -/
def mean (A : Mat 2048 2048) (B : Mat 2048 64) : Mat 2048 64 := fun m k => total A B m k * ((1 / 2048 : ℝ) : EReal)

/-- Their supremum. -/
def top (A : Mat 2048 2048) (B : Mat 2048 64) : Mat 2048 64 := fun m k => ⨆ n, term A B m k n

/-- Their infimum. -/
def bot (A : Mat 2048 2048) (B : Mat 2048 64) : Mat 2048 64 := fun m k => ⨅ n, term A B m k n

/-- The sum of the squared products, each square taken factor by factor: `(A m n)² · (B n k)²`. -/
def totalSq (A : Mat 2048 2048) (B : Mat 2048 64) : Mat 2048 64 := fun m k => ∑ n, (A m n * A m n) * (B n k * B n k)

/-- The unbiased standard deviation from the centred squares: `√(∑ (p - μ)² · 1/2047)`. -/
def spreadCentred (A : Mat 2048 2048) (B : Mat 2048 64) : Mat 2048 64 := fun m k =>
  Ideal.sqrt ((∑ n, (term A B m k n - mean A B m k) * (term A B m k n - mean A B m k)) * ((1 / 2047 : ℝ) : EReal))

/-- The same from the raw second moment, clamped at zero: `√(max ((∑ p² - (∑ p)·(∑ p)·1/2048) · 1/2047) 0)`. -/
def spreadRaw (A : Mat 2048 2048) (B : Mat 2048 64) : Mat 2048 64 := fun m k =>
  Ideal.sqrt (max ((totalSq A B m k - total A B m k * total A B m k * ((1 / 2048 : ℝ) : EReal)) * ((1 / 2047 : ℝ) : EReal)) 0)

/-- Four 2048×64 tables side by side: columns 0–63, 64–127, 128–191, 192–255. -/
def side4 (a b c d : Mat 2048 64) : Mat 2048 256 := fun m q =>
  if h : q.val < 64 then a m ⟨q.val, h⟩
  else if h2 : q.val < 128 then b m ⟨q.val - 64, by omega⟩
  else if h3 : q.val < 192 then c m ⟨q.val - 128, by omega⟩
  else d m ⟨q.val - 192, by omega⟩

/-- The last layer at a row and an output column: `tanh (∑ q, C p q · W q o + b o)`. -/
def layer (C : Mat 2048 256) (W : Mat 256 128) (b : Fin 128 → EReal) : Mat 2048 128 := fun p o =>
  Ideal.tanh ((∑ q : Fin 256, C p q * W q o) + b o)

/-- The last layer as a 2048×128 array. -/
def layerArr (C : Mat 2048 256) (W : Mat 256 128) (b : Fin 128 → EReal) : (⟨2, ![2048, 128]⟩ : Shape).Idx → EReal :=
  fun j => layer C W b (j 0) (j 1)

theorem layerArr_ix2 (C : Mat 2048 256) (W : Mat 256 128) (b : Fin 128 → EReal) (p : Fin 2048) (o : Fin 128) :
    layerArr C W b (ix2 p o) = layer C W b p o := rfl

/-- The whole result with the standard deviation from the centred squares. -/
def resultCentred (A : Mat 2048 2048) (B : Mat 2048 64) (W : Mat 256 128) (b : Fin 128 → EReal) :
    (⟨2, ![2048, 128]⟩ : Shape).Idx → EReal :=
  layerArr (side4 (mean A B) (top A B) (bot A B) (spreadCentred A B)) W b

/-- The whole result with the standard deviation from the raw second moment. -/
def resultRaw (A : Mat 2048 2048) (B : Mat 2048 64) (W : Mat 256 128) (b : Fin 128 → EReal) :
    (⟨2, ![2048, 128]⟩ : Shape).Idx → EReal :=
  layerArr (side4 (mean A B) (top A B) (bot A B) (spreadRaw A B)) W b

end Cert.Spec

end
-- ==== Proof.LibPlainDot.lean ====
/-
  A plain matrix product read at an index.

  For the dimension numbers of an `M×K` by `K×N` product (contract the left operand's columns with the right operand's
  rows, no batch axis), the left operand's index at result index `(p, q)` and contraction position `k` is `(p, k)` and the
  right operand's is `(k, q)`. So, at the exact values, the vector unit's product into the zero accumulator and the
  host's `dot_general` are both, at `(p, q)`, the sum over `k` of `l (p, k) · r (k, q)`.
-/
import Idealize.ShloMosaic.Lib.ValueIdx
import Idealize.ShloMosaic.PureOps.Ideal.Laws

noncomputable section

open scoped BigOperators

namespace Cert.PlainDot

open Idealize.ShloMosaic Idealize.ShloMosaic.ValueIdx

variable (M K N : ℕ)

/-- One axis is contracted, of extent `K`. -/
theorem contr_rank : (DotDims.plain M K N).contr.rank = 1 := rfl
theorem contr_size : (DotDims.plain M K N).contr.size ⟨0, by rw [contr_rank]; exact Nat.one_pos⟩ = K := rfl

/-- The contraction positions are the numbers below `K`. -/
abbrev pos : (DotDims.plain M K N).contr.Idx ≃ Fin K := contrEquiv1 (DotDims.plain M K N) K (contr_rank M K N) (contr_size M K N)

/-- On its row axis the left operand follows the result's row. -/
theorem lhsIdx_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- On its column axis the right operand follows the result's column. -/
theorem rhsIdx_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand is read at `(p, k)`. -/
theorem lhsIdx_eq (p : Fin M) (q : Fin N) (k : Fin K) :
    (DotDims.plain M K N).lhsIdx (ix2 p q) ((pos M K N).symm k) = ix2 p k := by
  have hk := contrEquiv1_symm_val (DotDims.plain M K N) K (contr_rank M K N) (contr_size M K N) k
  funext a
  apply Fin.ext
  match a with
  | ⟨0, _⟩ => exact lhsIdx_row M K N _ _
  | ⟨1, _⟩ => exact ((DotDims.plain M K N).lhsIdx_val_of_single (cl := (1 : Fin 2)) rfl _ _).trans hk

/-- The right operand is read at `(k, q)`. -/
theorem rhsIdx_eq (p : Fin M) (q : Fin N) (k : Fin K) :
    (DotDims.plain M K N).rhsIdx (ix2 p q) ((pos M K N).symm k) = ix2 k q := by
  have hk := contrEquiv1_symm_val (DotDims.plain M K N) K (contr_rank M K N) (contr_size M K N) k
  funext a
  apply Fin.ext
  match a with
  | ⟨0, _⟩ => exact ((DotDims.plain M K N).rhsIdx_val_of_single (cr := (0 : Fin 2)) rfl _ _).trans hk
  | ⟨1, _⟩ => exact rhsIdx_col M K N _ _

variable {M K N}

/-- The sum over contraction positions is the sum over `k < K` of the operands at `(p, k)` and `(k, q)`. -/
theorem sum_contr {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k) : EReal)
      = ∑ k : Fin K, l (ix2 p k) * r (ix2 k q) := by
  rw [← Equiv.sum_comp (pos M K N).symm]
  refine Finset.sum_congr rfl fun k _ => ?_
  rw [lhsIdx_eq, rhsIdx_eq]

/-- The vector unit's product into the zero accumulator, at `(p, q)`. -/
theorem matmul_zero_apply {φ₁ φ₂ : FTy} (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant ⟨2, ![M, N]⟩ .f32 0x00000000#32) (ix2 p q) = ∑ k : Fin K, l (ix2 p k) * r (ix2 k q) :=
  (Ideal.matmul_constant_zero_apply _ prec l r _).trans (sum_contr l r p q)

/-- The host's `dot_general`, at `(p, q)`. -/
theorem dotGeneral_apply {φ₁ φ₂ : FTy} (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply _ prec sched l r _).trans (sum_contr l r p q)

end Cert.PlainDot

end
-- ==== Proof.RefMath.lean ====
/-
  The reference's arrays read at an index, at the exact extended reals.

  The reference builds the 2048×2048×64 table of products `A m n * B n k`, takes four statistics of it along the
  middle axis, lays the four 2048×64 tables side by side, multiplies by the weights, adds the bias and applies `tanh`.
  Each array is named here as the composition of operations that computes it, and read at a literal index: the table of
  products, its sum, mean, supremum and infimum, the centred products, the divisor `2048 - 1`, the unbiased standard
  deviation (whose guard `2048 - 1 > 0` holds, so the selection keeps the quotient), the four tables side by side and
  the last layer.  Together they say that the whole composition is the specification's result with the standard
  deviation taken from the centred squares.
-/
import proofs.«146669_j9036611191395_2_alg».proof.Proof.Gen.ReferenceIdeal
import proofs.«146669_j9036611191395_2_alg».proof.Proof.Spec
import proofs.«146669_j9036611191395_2_alg».proof.Proof.LibPlainDot
import Idealize.ShloMosaic.Lib.ValueIdx
import Idealize.ShloMosaic.Lib.Pipeline.Value
import Idealize.ShloMosaic.PureOps.Ideal.Laws
import Mathlib.Order.CompleteLattice.Finset
import Mathlib.Data.Finset.Fold

open scoped BigOperators

noncomputable section

namespace Cert.RefSide

open Cert.ReferenceIdeal Cert.ReferenceIdeal.Gen Idealize.ShloMosaic Idealize.ShloMosaic.ValueIdx

/-! ## Folds of `max` and `min` over a finite type -/

section Order

variable {α : Type*} [CompleteLinearOrder α]

theorem fold_max_eq_biSup {ι : Type*} [DecidableEq ι] (g : ι → α) (s : Finset ι) :
    s.fold max ⊥ g = ⨆ k ∈ s, g k := by
  induction s using Finset.induction_on with
  | empty => simp
  | insert a s ha ih =>
    rw [Finset.fold_insert ha, ih, Finset.iSup_insert]

/-- The fold of `max` from the bottom element over a whole finite type is the supremum of the family. -/
theorem fold_max_eq_iSup {ι : Type*} [Fintype ι] (g : ι → α) :
    (Finset.univ : Finset ι).fold max ⊥ g = ⨆ k, g k := by
  classical
  rw [fold_max_eq_biSup]
  simp

theorem fold_min_eq_biInf {ι : Type*} [DecidableEq ι] (g : ι → α) (s : Finset ι) :
    s.fold min ⊤ g = ⨅ k ∈ s, g k := by
  induction s using Finset.induction_on with
  | empty => simp
  | insert a s ha ih =>
    rw [Finset.fold_insert ha, ih, Finset.iInf_insert]

/-- The fold of `min` from the top element over a whole finite type is the infimum of the family. -/
theorem fold_min_eq_iInf {ι : Type*} [Fintype ι] (g : ι → α) :
    (Finset.univ : Finset ι).fold min ⊤ g = ⨅ k, g k := by
  classical
  rw [fold_min_eq_biInf]
  simp

end Order

/-! ## The float words -/

/-- The word `0x45000000` is `2048`. -/
theorem ofBits_2048 : Ideal.ofBits .f32 0x45000000#32 = ((2048 : ℝ) : EReal) := by
  simp [Ideal.ofBits, Ideal.ieee, -EReal.coe_mul]; norm_num

/-- The word `0xFF800000` is `-∞`. -/
theorem ofBits_neg_inf : Ideal.ofBits .f32 0xFF800000#32 = (⊥ : EReal) := by simp [Ideal.ofBits, Ideal.ieee]

/-- The word `0x7F800000` is `+∞`. -/
theorem ofBits_pos_inf : Ideal.ofBits .f32 0x7F800000#32 = (⊤ : EReal) := by simp [Ideal.ofBits, Ideal.ieee]

/-! ## The arrays -/

abbrev V3 : Type := FVec Ideal S2048x2048x64 .f32
abbrev V2 : Type := FVec Ideal S2048x64 .f32

/-- The table of products: each argument given a unit axis, repeated along it, and the two multiplied. -/
def prodArr (x0 : FVec Ideal S2048x2048 .f32) (x1 : FVec Ideal S2048x64 .f32) : V3 :=
  mulf (broadcastInDim S2048x2048x64 ![0, 1, 2] bcast_S2048x2048x1_S2048x2048x64_0_1_2
      (broadcastInDim S2048x2048x1 ![0, 1] bcast_S2048x2048_S2048x2048x1_0_1 x0))
    (broadcastInDim S2048x2048x64 ![0, 1, 2] bcast_S1x2048x64_S2048x2048x64_0_1_2
      (broadcastInDim S1x2048x64 ![1, 2] bcast_S2048x64_S1x2048x64_1_2 x1))

/-- The sum along the middle axis, from the zero word. -/
def sumArr (P : V3) : V2 :=
  Host.reduceAdd (F := Ideal) P (constant (F := Ideal) S_ .f32 0x00000000#32) reducesTo_S2048x2048x64_S2048x64_d1 h_S_

/-- The word of `2048`, as a rank-zero array. -/
def c2048 : FVec Ideal S_ .f32 := constant (F := Ideal) S_ .f32 0x45000000#32

/-- The mean: the sum divided by `2048`. -/
def meanArr (P : V3) : V2 := Host.divf (sumArr P) (broadcastInDim S2048x64 ![] bcast_S_S2048x64 c2048)

/-- The maximum along the middle axis, from `-∞`. -/
def maxArr (P : V3) : V2 :=
  Host.reduce (FloatOps.maximumf (F := Ideal) (φ := .f32)) P (constant (F := Ideal) S_ .f32 0xFF800000#32)
    reducesTo_S2048x2048x64_S2048x64_d1 h_S_

/-- The minimum along the middle axis, from `+∞`. -/
def minArr (P : V3) : V2 :=
  Host.reduce (FloatOps.minimumf (F := Ideal) (φ := .f32)) P (constant (F := Ideal) S_ .f32 0x7F800000#32)
    reducesTo_S2048x2048x64_S2048x64_d1 h_S_

/-- The table less its mean along the middle axis, the mean repeated along that axis. -/
def centred (P : V3) : V3 :=
  subf P (broadcastInDim S2048x2048x64 ![0, 1, 2] bcast_S2048x1x64_S2048x2048x64_0_1_2
    (Host.divf (broadcastInDim S2048x1x64 ![0, 2] bcast_S2048x64_S2048x1x64_0_2 (sumArr P))
      (broadcastInDim S2048x1x64 ![] bcast_S_S2048x1x64 c2048)))

/-- The divisor of the unbiased variance: `2048` less the integer one converted. -/
def divisor : FVec Ideal S_ .f32 := subf c2048 (sitofp .f32 (constantI S_ 32 1#32))

/-- The sum of the centred squares over the divisor. -/
def quot (P : V3) : V2 :=
  Host.divf (sumArr (mulf (centred P) (centred P))) (broadcastInDim S2048x64 ![] bcast_S_S2048x64 divisor)

/-- Whether the divisor is positive. -/
def test : IVec S_ 1 := cmpf .ogt divisor (constant (F := Ideal) S_ .f32 0x00000000#32)

/-- What the selection would take where the divisor is not positive. -/
def other : V2 := broadcastInDim S2048x64 ![] bcast_S_S2048x64 (id (constant (F := Ideal) S_ .f32 0x7FC00000#32))

/-- The standard deviation: the square root of the selected quotient. -/
def stdArr (P : V3) : V2 :=
  Host.sqrt (select (broadcastInDim S2048x64 ![] bcast_S_S2048x64 test) (quot P) other)

/-- Four tables side by side. -/
def catArr (a b c d : V2) : FVec Ideal S2048x256 .f32 :=
  concatenate S2048x256 1 [⟨S2048x64, a⟩, ⟨S2048x64, b⟩, ⟨S2048x64, c⟩, ⟨S2048x64, d⟩]
    concatenates_S2048x64_S2048x64_S2048x64_S2048x64_S2048x256_d1

/-- The last layer: the product with the weights, plus the bias repeated along the rows, under `tanh`. -/
def lastArr (C : FVec Ideal S2048x256 .f32) (x2 : FVec Ideal S256x128 .f32) (x3 : FVec Ideal S128 .f32) : FVec Ideal S2048x128 .f32 :=
  Host.tanh (addf (Host.dotGeneral dot_S2048x256_S256x128_S2048x128_1_0_0_1_n_n none C x2)
    (broadcastInDim S2048x128 ![0, 1] bcast_S1x128_S2048x128_0_1 (broadcastInDim S1x128 ![1] bcast_S128_S1x128_1 x3)))

/-- The whole composition. -/
def outArr (x0 : FVec Ideal S2048x2048 .f32) (x1 : FVec Ideal S2048x64 .f32) (x2 : FVec Ideal S256x128 .f32)
    (x3 : FVec Ideal S128 .f32) : FVec Ideal S2048x128 .f32 :=
  lastArr (catArr (meanArr (prodArr x0 x1)) (maxArr (prodArr x0 x1)) (minArr (prodArr x0 x1)) (stdArr (prodArr x0 x1))) x2 x3

/-! ## Read at an index -/

theorem prodArr_apply (x0 : FVec Ideal S2048x2048 .f32) (x1 : FVec Ideal S2048x64 .f32) (m n : Fin 2048) (k : Fin 64) :
    prodArr x0 x1 (ix3 m n k) = x0 (ix2 m n) * x1 (ix2 n k) := by
  unfold prodArr
  rw [mulf_apply,
    broadcastInDim_apply _ bcast_S2048x2048x1_S2048x2048x64_0_1_2 _ (ix3 m n k) (ix3 m n (0 : Fin 1))
      (fun a => by match a with | ⟨0, _⟩ => rfl | ⟨1, _⟩ => rfl | ⟨2, _⟩ => rfl),
    broadcastInDim_apply _ bcast_S2048x2048_S2048x2048x1_0_1 x0 (ix3 m n (0 : Fin 1)) (ix2 m n)
      (fun a => by match a with | ⟨0, _⟩ => rfl | ⟨1, _⟩ => rfl),
    broadcastInDim_apply _ bcast_S1x2048x64_S2048x2048x64_0_1_2 _ (ix3 m n k) (ix3 (0 : Fin 1) n k)
      (fun a => by match a with | ⟨0, _⟩ => rfl | ⟨1, _⟩ => rfl | ⟨2, _⟩ => rfl),
    broadcastInDim_apply _ bcast_S2048x64_S1x2048x64_1_2 x1 (ix3 (0 : Fin 1) n k) (ix2 n k)
      (fun a => by match a with | ⟨0, _⟩ => rfl | ⟨1, _⟩ => rfl)]

/-- The middle axis is the one summed over. -/
theorem red : S2048x2048x64.Reduces [1] S2048x64 := by decide

/-- The index over `(m, k)` with `n` inserted on the middle axis is `(m, n, k)`. -/
theorem lift_eq (m : Fin 2048) (k : Fin 64) (n : Fin 2048) : red.lift (ix2 m k) n = ix3 m n k := by
  funext a
  apply Fin.ext
  match a with
  | ⟨0, _⟩ => rfl
  | ⟨1, _⟩ => rfl
  | ⟨2, _⟩ => rfl

theorem sumArr_apply (P : V3) (m : Fin 2048) (k : Fin 64) : sumArr P (ix2 m k) = ∑ n : Fin 2048, P (ix3 m n k) := by
  have h := Ideal.hostReduceAdd_single reducesTo_S2048x2048x64_S2048x64_d1 red P (Ideal.ofBits .f32 0x00000000#32) (ix2 m k)
  refine (show sumArr P (ix2 m k) = _ from h).trans ?_
  rw [Ideal.ofBits_zero_f32, zero_add]
  exact Finset.sum_congr rfl fun n _ => congrArg P (lift_eq m k n)

theorem c2048_val (i : S_.Idx) : c2048 i = ((2048 : ℝ) : EReal) := ofBits_2048

theorem meanArr_apply (P : V3) (m : Fin 2048) (k : Fin 64) :
    meanArr P (ix2 m k) = (∑ n : Fin 2048, P (ix3 m n k)) * ((1 / 2048 : ℝ) : EReal) := by
  show Ideal.div (sumArr P (ix2 m k)) (broadcastInDim S2048x64 ![] bcast_S_S2048x64 c2048 (ix2 m k)) = _
  rw [broadcastInDim_apply _ bcast_S_S2048x64 c2048 (ix2 m k) ix0 (fun a => a.elim0), c2048_val, sumArr_apply,
    Ideal.div_coe (by norm_num)]

theorem maxArr_apply (P : V3) (m : Fin 2048) (k : Fin 64) : maxArr P (ix2 m k) = ⨆ n : Fin 2048, P (ix3 m n k) := by
  unfold maxArr
  rw [Host.reduce_eq_fold_single (FloatOps.maximumf (F := Ideal) (φ := .f32)) P _ reducesTo_S2048x2048x64_S2048x64_d1 red h_S_ (ix2 m k)]
  show (Finset.univ : Finset (Fin 2048)).fold max (Ideal.ofBits .f32 0xFF800000#32) (fun n => P (red.lift (ix2 m k) n)) = _
  rw [ofBits_neg_inf]
  refine (fold_max_eq_iSup _).trans ?_
  exact iSup_congr fun n => congrArg P (lift_eq m k n)

theorem minArr_apply (P : V3) (m : Fin 2048) (k : Fin 64) : minArr P (ix2 m k) = ⨅ n : Fin 2048, P (ix3 m n k) := by
  unfold minArr
  rw [Host.reduce_eq_fold_single (FloatOps.minimumf (F := Ideal) (φ := .f32)) P _ reducesTo_S2048x2048x64_S2048x64_d1 red h_S_ (ix2 m k)]
  show (Finset.univ : Finset (Fin 2048)).fold min (Ideal.ofBits .f32 0x7F800000#32) (fun n => P (red.lift (ix2 m k) n)) = _
  rw [ofBits_pos_inf]
  refine (fold_min_eq_iInf _).trans ?_
  exact iInf_congr fun n => congrArg P (lift_eq m k n)

theorem centred_apply (P : V3) (m n : Fin 2048) (k : Fin 64) :
    centred P (ix3 m n k) = P (ix3 m n k) - (∑ n' : Fin 2048, P (ix3 m n' k)) * ((1 / 2048 : ℝ) : EReal) := by
  unfold centred
  rw [subf_apply, broadcastInDim_apply _ bcast_S2048x1x64_S2048x2048x64_0_1_2 _ (ix3 m n k) (ix3 m (0 : Fin 1) k)
    (fun a => by match a with | ⟨0, _⟩ => rfl | ⟨1, _⟩ => rfl | ⟨2, _⟩ => rfl)]
  show P (ix3 m n k) - Ideal.div (broadcastInDim S2048x1x64 ![0, 2] bcast_S2048x64_S2048x1x64_0_2 (sumArr P) (ix3 m (0 : Fin 1) k))
      (broadcastInDim S2048x1x64 ![] bcast_S_S2048x1x64 c2048 (ix3 m (0 : Fin 1) k)) = _
  rw [broadcastInDim_apply _ bcast_S2048x64_S2048x1x64_0_2 (sumArr P) (ix3 m (0 : Fin 1) k) (ix2 m k)
      (fun a => by match a with | ⟨0, _⟩ => rfl | ⟨1, _⟩ => rfl),
    broadcastInDim_apply _ bcast_S_S2048x1x64 c2048 (ix3 m (0 : Fin 1) k) ix0 (fun a => a.elim0), c2048_val, sumArr_apply,
    Ideal.div_coe (by norm_num)]

theorem divisor_val (i : S_.Idx) : divisor i = ((2047 : ℝ) : EReal) := by
  show Ideal.ofBits .f32 0x45000000#32 - (((1#32 : BitVec 32).toInt : ℝ) : EReal) = _
  rw [ofBits_2048, show (1#32 : BitVec 32).toInt = 1 from by decide, Int.cast_one, ← EReal.coe_sub]
  norm_num

theorem quot_apply (P : V3) (m : Fin 2048) (k : Fin 64) :
    quot P (ix2 m k) = (∑ n : Fin 2048, centred P (ix3 m n k) * centred P (ix3 m n k)) * ((1 / 2047 : ℝ) : EReal) := by
  show Ideal.div (sumArr (mulf (centred P) (centred P)) (ix2 m k)) (broadcastInDim S2048x64 ![] bcast_S_S2048x64 divisor (ix2 m k)) = _
  rw [broadcastInDim_apply _ bcast_S_S2048x64 divisor (ix2 m k) ix0 (fun a => a.elim0), divisor_val, sumArr_apply,
    Ideal.div_coe (by norm_num)]
  rfl

theorem test_val (i : S_.Idx) : test i = 1#1 := by
  show Ideal.cmp .ogt (divisor i) (Ideal.ofBits .f32 0x00000000#32) = 1#1
  rw [divisor_val, Ideal.ofBits_zero_f32]
  have h : (0 : EReal) < ((2047 : ℝ) : EReal) := EReal.coe_pos.mpr (by norm_num)
  simp [Ideal.cmp, h]

theorem stdArr_apply (P : V3) (m : Fin 2048) (k : Fin 64) : stdArr P (ix2 m k) = Ideal.sqrt (quot P (ix2 m k)) := by
  show Ideal.sqrt (Scalar.select (broadcastInDim S2048x64 ![] bcast_S_S2048x64 test (ix2 m k)) (quot P (ix2 m k)) (other (ix2 m k))) = _
  rw [broadcastInDim_apply _ bcast_S_S2048x64 test (ix2 m k) ix0 (fun a => a.elim0), test_val, select_one]

theorem catArr_apply (a b c d : V2) (m : Fin 2048) (q : Fin 256) :
    catArr a b c d (ix2 m q) = Spec.side4 (Spec.mat a) (Spec.mat b) (Spec.mat c) (Spec.mat d) m q := by
  unfold catArr Spec.side4
  split
  · next h =>
    exact concatenate_apply_piece 1 _ _ (ix2 m q) 0 (by show 0 < 4; omega) S2048x64 a rfl rfl 0 rfl (ix2 m ⟨q.val, h⟩)
      (fun e he => by match e with | ⟨0, _⟩ => rfl | ⟨1, _⟩ => exact absurd rfl he) (by show 0 + q.val = q.val; omega)
  · next h =>
    split
    · next h2 =>
      exact concatenate_apply_piece 1 _ _ (ix2 m q) 1 (by show 1 < 4; omega) S2048x64 b rfl rfl 64 rfl (ix2 m ⟨q.val - 64, by omega⟩)
        (fun e he => by match e with | ⟨0, _⟩ => rfl | ⟨1, _⟩ => exact absurd rfl he) (by show 64 + (q.val - 64) = q.val; omega)
    · next h2 =>
      split
      · next h3 =>
        exact concatenate_apply_piece 1 _ _ (ix2 m q) 2 (by show 2 < 4; omega) S2048x64 c rfl rfl 128 rfl (ix2 m ⟨q.val - 128, by omega⟩)
          (fun e he => by match e with | ⟨0, _⟩ => rfl | ⟨1, _⟩ => exact absurd rfl he) (by show 128 + (q.val - 128) = q.val; omega)
      · next h3 =>
        exact concatenate_apply_piece 1 _ _ (ix2 m q) 3 (by show 3 < 4; omega) S2048x64 d rfl rfl 192 rfl (ix2 m ⟨q.val - 192, by have := q.isLt; omega⟩)
          (fun e he => by match e with | ⟨0, _⟩ => rfl | ⟨1, _⟩ => exact absurd rfl he) (by show 192 + (q.val - 192) = q.val; omega)

theorem dot_apply (l : FVec Ideal S2048x256 .f32) (r : FVec Ideal S256x128 .f32) (p : Fin 2048) (o : Fin 128) :
    Host.dotGeneral (F := Ideal) dot_S2048x256_S256x128_S2048x128_1_0_0_1_n_n none l r (ix2 p o) = ∑ q : Fin 256, l (ix2 p q) * r (ix2 q o) :=
  Cert.PlainDot.dotGeneral_apply none .single l r p o

theorem bias_apply (x3 : FVec Ideal S128 .f32) (p : Fin 2048) (o : Fin 128) :
    broadcastInDim S2048x128 ![0, 1] bcast_S1x128_S2048x128_0_1 (broadcastInDim S1x128 ![1] bcast_S128_S1x128_1 x3) (ix2 p o) = x3 (ix1 o) := by
  rw [broadcastInDim_apply _ bcast_S1x128_S2048x128_0_1 _ (ix2 p o) (ix2 (0 : Fin 1) o)
      (fun a => by match a with | ⟨0, _⟩ => rfl | ⟨1, _⟩ => rfl),
    broadcastInDim_apply _ bcast_S128_S1x128_1 x3 (ix2 (0 : Fin 1) o) (ix1 o) (fun a => by match a with | ⟨0, _⟩ => rfl)]

theorem lastArr_apply (C : FVec Ideal S2048x256 .f32) (x2 : FVec Ideal S256x128 .f32) (x3 : FVec Ideal S128 .f32) (p : Fin 2048) (o : Fin 128) :
    lastArr C x2 x3 (ix2 p o) = Ideal.tanh ((∑ q : Fin 256, C (ix2 p q) * x2 (ix2 q o)) + x3 (ix1 o)) := by
  show Ideal.tanh (Host.dotGeneral (F := Ideal) dot_S2048x256_S256x128_S2048x128_1_0_0_1_n_n none C x2 (ix2 p o)
    + broadcastInDim S2048x128 ![0, 1] bcast_S1x128_S2048x128_0_1 (broadcastInDim S1x128 ![1] bcast_S128_S1x128_1 x3) (ix2 p o)) = _
  rw [dot_apply, bias_apply]

/-! ## The four statistics are the specification's -/

section Stats

variable (x0 : FVec Ideal S2048x2048 .f32) (x1 : FVec Ideal S2048x64 .f32)

theorem mean_eq : Spec.mat (meanArr (prodArr x0 x1)) = Spec.mean (Spec.mat x0) (Spec.mat x1) := by
  funext m k
  show meanArr (prodArr x0 x1) (ix2 m k) = _
  rw [meanArr_apply]
  simp only [prodArr_apply]
  rfl

theorem top_eq : Spec.mat (maxArr (prodArr x0 x1)) = Spec.top (Spec.mat x0) (Spec.mat x1) := by
  funext m k
  show maxArr (prodArr x0 x1) (ix2 m k) = _
  rw [maxArr_apply]
  simp only [prodArr_apply]
  rfl

theorem bot_eq : Spec.mat (minArr (prodArr x0 x1)) = Spec.bot (Spec.mat x0) (Spec.mat x1) := by
  funext m k
  show minArr (prodArr x0 x1) (ix2 m k) = _
  rw [minArr_apply]
  simp only [prodArr_apply]
  rfl

theorem spread_eq : Spec.mat (stdArr (prodArr x0 x1)) = Spec.spreadCentred (Spec.mat x0) (Spec.mat x1) := by
  funext m k
  show stdArr (prodArr x0 x1) (ix2 m k) = _
  rw [stdArr_apply, quot_apply]
  simp only [centred_apply, prodArr_apply]
  rfl

end Stats

/-- The whole composition is the specification's result with the standard deviation from the centred squares. -/
theorem outArr_eq (x0 : FVec Ideal S2048x2048 .f32) (x1 : FVec Ideal S2048x64 .f32) (x2 : FVec Ideal S256x128 .f32)
    (x3 : FVec Ideal S128 .f32) :
    outArr x0 x1 x2 x3 = Spec.resultCentred (Spec.mat x0) (Spec.mat x1) (Spec.mat x2) (Spec.vec x3) := by
  funext j
  obtain ⟨p, o, rfl⟩ : ∃ (p : Fin 2048) (o : Fin 128), j = ix2 p o := ⟨j 0, j 1, eq_ix2 j⟩
  unfold outArr Spec.resultCentred
  rw [lastArr_apply, Spec.layerArr_ix2]
  simp only [catArr_apply, mean_eq, top_eq, bot_eq, spread_eq]
  rfl

end Cert.RefSide

end
-- ==== Proof.RefValue.lean ====
/-
  What the reference computes.

  Run as a straight line of forty-four operations, the reference leaves in its result buffer the fold of those
  operations over the launch contents.  Read at the result, that fold is the composition of named arrays — the table of
  products, its mean, supremum, infimum and unbiased standard deviation along the middle axis, the four tables side by
  side, the last layer — applied to the four argument arrays; and that composition is, index by index, the
  specification's result with the standard deviation taken from the centred squares.  The four arguments are written by
  no operation, so they end as they began.
-/
import proofs.«146669_j9036611191395_2_alg».proof.Proof.RefRun
import proofs.«146669_j9036611191395_2_alg».proof.Proof.RefMath

noncomputable section

namespace Cert.RefSide

open Cert.ReferenceIdeal Cert.ReferenceIdeal.Gen Cert.ReferenceIdeal.Hand Idealize.ShloMosaic Idealize.ShloMosaic.TcCoe Idealize.SL.Sem Idealize.ShloMosaic.StableHlo

-- the reductions, the re-indexings and the concatenation are kept folded: the equation never looks inside them
attribute [local irreducible] Host.reduce Host.reduceAdd broadcastInDim concatenate in
set_option maxRecDepth 8192 in
set_option maxHeartbeats 400000 in
/-- The fold at the result buffer is the composition of the named arrays, by computation: the fold unrolled, each
    operation's result decides whether the buffer read is the one it writes, and the typed references' transports are
    the identity at these literal references. -/
theorem out_eq (V : Valuation τ sig (Elt Ideal)) :
    after (ops (F := Ideal)) V (main_v16 : DevRef τ sig)
      = outArr (V (main_arg0 : DevRef τ sig)) (V (main_arg1 : DevRef τ sig)) (V (main_arg2 : DevRef τ sig)) (V (main_arg3 : DevRef τ sig)) := by
  simp only [after_cons, after_nil]
  rfl

theorem arg0_eq (V : Valuation τ sig (Elt Ideal)) :
    after (ops (F := Ideal)) V (main_arg0 : DevRef τ sig) = V (main_arg0 : DevRef τ sig) := by
  simp only [after_cons, after_nil]
  rfl

theorem arg1_eq (V : Valuation τ sig (Elt Ideal)) :
    after (ops (F := Ideal)) V (main_arg1 : DevRef τ sig) = V (main_arg1 : DevRef τ sig) := by
  simp only [after_cons, after_nil]
  rfl

theorem arg2_eq (V : Valuation τ sig (Elt Ideal)) :
    after (ops (F := Ideal)) V (main_arg2 : DevRef τ sig) = V (main_arg2 : DevRef τ sig) := by
  simp only [after_cons, after_nil]
  rfl

theorem arg3_eq (V : Valuation τ sig (Elt Ideal)) :
    after (ops (F := Ideal)) V (main_arg3 : DevRef τ sig) = V (main_arg3 : DevRef τ sig) := by
  simp only [after_cons, after_nil]
  rfl

/-- At the compiled mesh, at the exact values, from any memory with zero counters: every weakly fair execution of the
    reference terminates with its result buffer at the specification's result (the standard deviation from the centred
    squares) of the four argument arrays, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16)
        = Cert.Spec.resultCentred (Cert.Spec.mat (m ((c.tc : Thread nD τ).loc main_arg0))) (Cert.Spec.mat (m ((c.tc : Thread nD τ).loc main_arg1)))
            (Cert.Spec.mat (m ((c.tc : Thread nD τ).loc main_arg2))) (Cert.Spec.vec (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h c main_v16).trans (out_eq _)).trans (outArr_eq _ _ _ _),
        (h c main_arg0).trans (arg0_eq _), (h c main_arg1).trans (arg1_eq _),
        (h c main_arg2).trans (arg2_eq _), (h c main_arg3).trans (arg3_eq _)⟩)
    (run_main m ρ)

end Cert.RefSide

end
-- ==== Proof.LibRealEntries.lean ====
/-
  Extended reals that are real numbers: a small library.

  `IsReal x` says the extended real `x` is a real number (neither infinity). Real entries are closed under
  sums, products and finite sums; an entry below +∞ in absolute value is real; a scatter-add of real updates
  onto a real operand is real everywhere. The coercion ℝ → EReal commutes with finite sums. Last, one algebraic
  law that needs real entries (distributivity fails at the infinities): a row `a` through two affine maps in a
  row, `(a · W₁ + b₁) · W₂ + b₂`, is the row through the collapsed map, `a · (W₁ W₂) + (b₁ · W₂ + b₂)`.
-/
import Idealize.ShloMosaic.PureOps.Ideal

namespace Cert.Hand

open scoped BigOperators

/-- An extended real that is a real number (neither infinity). -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- An extended real strictly between the infinities in absolute value is a real number. -/
theorem isReal_of_abs_lt_top {x : EReal} (h : max x (-x) < ⊤) : IsReal x := by
  induction x using EReal.rec with
  | bot => exact absurd h (by simp)
  | coe r => exact ⟨r, rfl⟩
  | top => exact absurd h (by simp)

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for a row `a`, weights `w₁`, `w₂` (the second at one output column) and biases `b₁`, `b₂`,
    all real, the collapsed affine map `a · (w₁ w₂) + (b₁ · w₂ + b₂)` is the two maps in a row,
    `(a · w₁ + b₁) · w₂ + b₂`. -/
theorem affine_collapse {K L : Type} [Fintype K] [Fintype L]
    (a : K → EReal) (w₁ : K → L → EReal) (b₁ : L → EReal) (w₂ : L → EReal) (b₂ : EReal)
    (ha : ∀ k, IsReal (a k)) (hw₁ : ∀ k l, IsReal (w₁ k l)) (hb₁ : ∀ l, IsReal (b₁ l))
    (hw₂ : ∀ l, IsReal (w₂ l)) (hb₂ : IsReal b₂) :
    (∑ k, a k * ∑ l, w₁ k l * w₂ l) + ((∑ l, b₁ l * w₂ l) + b₂)
      = (∑ l, ((∑ k, a k * w₁ k l) + b₁ l) * w₂ l) + b₂ := by
  choose a' ha' using ha
  choose w₁' hw₁' using hw₁
  choose b₁' hb₁' using hb₁
  choose w₂' hw₂' using hw₂
  obtain ⟨b₂', rfl⟩ := hb₂
  obtain rfl : a = fun k => (a' k : EReal) := funext ha'
  obtain rfl : w₁ = fun k l => (w₁' k l : EReal) := funext fun k => funext (hw₁' k)
  obtain rfl : b₁ = fun l => (b₁' l : EReal) := funext hb₁'
  obtain rfl : w₂ = fun l => (w₂' l : EReal) := funext hw₂'
  simp only [← EReal.coe_mul, ← coe_sum, ← EReal.coe_add]
  congr 1
  simp only [Finset.mul_sum, add_mul, Finset.sum_mul, Finset.sum_add_distrib]
  rw [Finset.sum_comm]
  simp only [mul_assoc, add_assoc]

/-- A scatter-add of real updates onto a real operand is real everywhere: each entry is the operand's entry
    plus a finite sum of updates (the ones that land on it). -/
theorem hostScatterAdd_isReal {s si su : Idealize.ShloMosaic.Shape} (d : Idealize.ShloMosaic.ScatterDims s si su) {w : Nat}
    (x : s.Idx → EReal) (idx : Idealize.ShloMosaic.IVec si w) (upd : su.Idx → EReal)
    (hx : ∀ i, IsReal (x i)) (hu : ∀ j, IsReal (upd j)) (i : s.Idx) :
    IsReal (Idealize.ShloMosaic.Ideal.hostScatterAdd d x idx upd i) :=
  IsReal.add (hx i) (IsReal.sum _ _ fun j _ => hu j)

end Cert.Hand
-- ==== Proof.Spread.lean ====
/-
  The two spellings of the unbiased standard deviation agree on real entries.

  For a finite family of real numbers `p` with `N` members, sum `S` and mean `μ = S · 1/N`,

      ∑ (p - μ)² = ∑ p² - S · S · 1/N,

  because the cross term `2 μ S` and the constant term `N μ²` combine to `S²/N`. The left side is a sum of squares, so
  it is not negative, and it stays so after the factor `1/(N-1)`; a clamp at zero applied to the right side therefore
  changes nothing. With `p n = A m n · B n k` and `p² = (A m n)² · (B n k)²` this is the statement that the spread
  computed from the raw second moment is the spread computed from the centred squares. The identity is first proved
  over the real numbers and then carried to extended reals whose entries are real, where every sum, product and
  difference is the image of the corresponding real one.
-/
import proofs.«146669_j9036611191395_2_alg».proof.Proof.Spec
import proofs.«146669_j9036611191395_2_alg».proof.Proof.LibRealEntries

open scoped BigOperators

noncomputable section

namespace Cert.Spec

open Idealize.ShloMosaic Cert.Hand

/-- Over the reals: the sum of the centred squares is the raw second moment minus `S · S · 1/N`, for `N = 2048`. -/
theorem real_centred_eq_raw {ι : Type} [Fintype ι] (p : ι → ℝ) (hN : (Fintype.card ι : ℝ) = 2048) :
    ∑ n, (p n - (∑ i, p i) * (1 / 2048)) * (p n - (∑ i, p i) * (1 / 2048))
      = (∑ n, p n * p n) - (∑ i, p i) * (∑ i, p i) * (1 / 2048) := by
  generalize hS : ∑ i, p i = S
  have h1 : ∀ n, (p n - S * (1 / 2048)) * (p n - S * (1 / 2048))
      = p n * p n - (2 * (S * (1 / 2048))) * p n + (S * (1 / 2048)) * (S * (1 / 2048)) := fun n => by ring
  rw [Finset.sum_congr rfl fun n _ => h1 n, Finset.sum_add_distrib, Finset.sum_sub_distrib, ← Finset.mul_sum, hS,
    Finset.sum_const, Finset.card_univ, nsmul_eq_mul, hN]
  ring

/-- Over the reals: the sum of the centred squares times a positive factor is not negative. -/
theorem real_centred_nonneg {ι : Type} [Fintype ι] (p : ι → ℝ) (μ : ℝ) :
    0 ≤ (∑ n, (p n - μ) * (p n - μ)) * (1 / 2047) :=
  mul_nonneg (Finset.sum_nonneg fun n _ => mul_self_nonneg (p n - μ)) (by norm_num)

/-- A clamp at zero of a real number equal to a non-negative one is that number. -/
theorem max_coe_zero_eq {X Y : ℝ} (h : X = Y) (hY : 0 ≤ Y) : max (X : EReal) 0 = (Y : EReal) := by
  rw [h]
  exact max_eq_left (EReal.coe_nonneg.mpr hY)

/-- In extended reals, for real families `x` and `y` with 2048 members: the clamped raw form of the scaled spread
    of the products `x n · y n` is the centred form. -/
theorem spread_arg_eq {ι : Type} [Fintype ι] (hN : (Fintype.card ι : ℝ) = 2048) (x y : ι → ℝ) :
    max (((∑ n, ((x n : EReal) * (x n : EReal)) * ((y n : EReal) * (y n : EReal)))
          - (∑ n, (x n : EReal) * (y n : EReal)) * (∑ n, (x n : EReal) * (y n : EReal)) * ((1 / 2048 : ℝ) : EReal))
        * ((1 / 2047 : ℝ) : EReal)) 0
      = (∑ n, ((x n : EReal) * (y n : EReal) - (∑ i, (x i : EReal) * (y i : EReal)) * ((1 / 2048 : ℝ) : EReal))
            * ((x n : EReal) * (y n : EReal) - (∑ i, (x i : EReal) * (y i : EReal)) * ((1 / 2048 : ℝ) : EReal)))
        * ((1 / 2047 : ℝ) : EReal) := by
  simp only [← EReal.coe_mul, ← coe_sum, ← EReal.coe_sub]
  refine max_coe_zero_eq ?_ (real_centred_nonneg (fun n => x n * y n) _)
  have hsq : ∀ n, x n * x n * (y n * y n) = (x n * y n) * (x n * y n) := fun n => by ring
  have key := real_centred_eq_raw (fun n => x n * y n) hN
  rw [Finset.sum_congr rfl fun n _ => hsq n, key]

/-- On tables with real entries the spread from the raw second moment is the spread from the centred squares. -/
theorem spreadRaw_eq_spreadCentred (A : Mat 2048 2048) (B : Mat 2048 64) (hA : ∀ i j, Cert.Hand.IsReal (A i j))
    (hB : ∀ i j, Cert.Hand.IsReal (B i j)) :
    spreadRaw A B = spreadCentred A B := by
  choose a ha using hA
  choose b hb using hB
  obtain rfl : A = fun i j => (a i j : EReal) := funext fun i => funext (ha i)
  obtain rfl : B = fun i j => (b i j : EReal) := funext fun i => funext (hb i)
  funext m k
  have hN : (Fintype.card (Fin 2048) : ℝ) = 2048 := by simp
  simp only [spreadRaw, spreadCentred, totalSq, total, mean, term]
  exact congrArg Ideal.sqrt (spread_arg_eq hN (fun n => a m n) (fun n => b n k))

/-- Hence the two whole results agree on tables with real entries. -/
theorem resultRaw_eq_resultCentred (A : Mat 2048 2048) (B : Mat 2048 64) (W : Mat 256 128) (b : Fin 128 → EReal)
    (hA : ∀ i j, Cert.Hand.IsReal (A i j)) (hB : ∀ i j, Cert.Hand.IsReal (B i j)) :
    resultRaw A B W b = resultCentred A B W b := by
  unfold resultRaw resultCentred
  rw [spreadRaw_eq_spreadCentred A B hA hB]

end Cert.Spec

end
-- ==== Proof.Finite.lean ====
/-
  Every entry of the first two argument arrays is a real number.

  The precondition is the conjunction, over the four argument arrays, of "every entry is below +∞ in absolute
  value": each array's absolute value is compared entrywise with the constant whose pattern is that of +∞, the
  comparisons are reduced by "and" over all axes, and the four results are joined by "and". The conjunction
  being 1, each reduction is 1; a reduction by "and" that is 1 had a 1 at every index; a comparison
  `max x (-x) < +∞` that holds says `x` is neither infinity, that is, a real number.
-/
import proofs.«146669_j9036611191395_2_alg».proof.Defs
import proofs.«146669_j9036611191395_2_alg».proof.Proof.Gen.Pre_finite_inputs
import proofs.«146669_j9036611191395_2_alg».proof.Proof.Spec
import proofs.«146669_j9036611191395_2_alg».proof.Proof.LibRealEntries
import Idealize.ShloMosaic.Lib.ReduceAll

noncomputable section

namespace Cert.Finite

open Idealize.ShloMosaic Idealize.SL.Sem Cert.Hand

/-- The shape with no axes has one index. -/
instance subsingleton_idx0 : Subsingleton (⟨0, ![]⟩ : Shape).Idx := ⟨fun a b => funext fun d => d.elim0⟩

/-- The pattern 0x7F800000 (sign 0, exponent all ones, significand 0) denotes +∞. -/
theorem ofBits_inf : Ideal.ofBits .f32 0x7F800000#32 = (⊤ : EReal) := by
  simp [Ideal.ofBits, Ideal.ieee]

/-- The comparison "below +∞ in absolute value", when it holds, says the entry is real. -/
theorem isReal_of_cmp (x : EReal)
    (h : Ideal.cmp .olt (max x (-x)) (Ideal.ofBits .f32 0x7F800000#32) = 1#1) : IsReal x := by
  rw [ofBits_inf] at h
  unfold Ideal.cmp at h
  refine isReal_of_abs_lt_top ?_
  by_contra hn
  simp [hn] at h

/-- THE ELEMENT STEP, over an arbitrary shape: if the reduction by "and", over all axes, of the entrywise
    comparison `|x| < +∞` is 1, then every entry of `x` is a real number. -/
theorem isReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : IsReal (x i) :=
  isReal_of_cmp (x i) (Host.reduce_andi_all _ _ hr hu ValueIdx.ix0 e i)

/-- THE PRECONDITION DECODED, all four arrays: the four reductions are 1. -/
theorem pre_split (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ((∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i)))
    ∧ ((∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i))) := by
  have e := congrFun (h c) ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  exact ⟨⟨fun i => isReal_of_all _ _ _ _ e0 i, fun i => isReal_of_all _ _ _ _ e1 i⟩,
    ⟨fun i => isReal_of_all _ _ _ _ e2 i, fun i => isReal_of_all _ _ _ _ e3 i⟩⟩

/-- On every device, every entry of the first argument array (2048×2048) and of the second (2048×64) is a
    real number. -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i j, IsReal (Cert.Spec.mat (m ((c.tc : Thread Cert.KernelIdeal.nD Cert.KernelIdeal.τ).loc Cert.KernelIdeal.main_arg0)) i j))
    ∧ (∀ i j, IsReal (Cert.Spec.mat (m ((c.tc : Thread Cert.KernelIdeal.nD Cert.KernelIdeal.τ).loc Cert.KernelIdeal.main_arg1)) i j)) :=
  ⟨fun i j => (pre_split m h c).1.1 (ValueIdx.ix2 i j), fun i j => (pre_split m h c).1.2 (ValueIdx.ix2 i j)⟩

/-- Likewise the third argument array (256×128) and the fourth (128). -/
theorem real_weights (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i j, IsReal (Cert.Spec.mat (m ((c.tc : Thread Cert.KernelIdeal.nD Cert.KernelIdeal.τ).loc Cert.KernelIdeal.main_arg2)) i j))
    ∧ (∀ i, IsReal (Cert.Spec.vec (m ((c.tc : Thread Cert.KernelIdeal.nD Cert.KernelIdeal.τ).loc Cert.KernelIdeal.main_arg3)) i)) :=
  ⟨fun i j => (pre_split m h c).2.1 (ValueIdx.ix2 i j), fun i => (pre_split m h c).2.2 (ValueIdx.ix1 i)⟩

end Cert.Finite

end
-- ==== Proof.Assemble.lean ====
/-
  The certificate's claims, assembled.

  Two programs take a 2048×2048 matrix `A`, a 2048×64 matrix `B`, a 256×128 matrix `W` and a vector `b` of 128
  entries.  For each row `m` and column `k` they take four statistics of the 2048 products `A m n * B n k` — the mean, the
  supremum, the infimum and the unbiased standard deviation —, lay the four 2048×64 tables side by side and return
  `tanh (table · W + b)`.  The certificate claims: each program — the kernel as written, the kernel at the exact extended
  reals, the reference at the exact extended reals — runs to the end and leaves its arguments as they were; the three
  constants that the exact reading of the kernel names are the rationals `1/2048`, `1/2048` and `1/2047`; and, at the exact
  extended reals, from memories that agree on the four arguments, whose entries are all finite, the kernel and the
  reference end with the same result array.

  The two sides spell the standard deviation differently.  The reference centres the products first:
  `√(∑ (p - μ)² · 1/2047)` with `μ = (∑ p) · 1/2048`.  The kernel accumulates the raw moments and clamps at zero:
  `√(max ((∑ p² - (∑ p)·(∑ p)·1/2048) · 1/2047) 0)`.  The law that joins them is the identity
  `∑ (p - μ)² = ∑ p² - (∑ p)² / N` for `N` real numbers with mean `μ`, whose left side is a sum of squares, so the clamp
  changes nothing.  It is an identity of real numbers: it needs every entry of `A` and `B` to be real, which is what the
  precondition (all entries finite) gives.  The other three statistics and the last layer are the same expressions on both
  sides.

  The kernel's value at the exact extended reals enters as a hypothesis (`KernelRun`): its result array is the
  specification's result with the standard deviation from the raw moments, its arguments unchanged.  From it and the
  reference's value — the specification's result with the standard deviation from the centred squares — the common value
  is the latter, taken of the kernel side's argument arrays.
-/
import proofs.«146669_j9036611191395_2_alg».proof.Defs
import proofs.«146669_j9036611191395_2_alg».proof.Proof.Gen.Kernel.Frame
import proofs.«146669_j9036611191395_2_alg».proof.Proof.Gen.KernelIdeal.Frame
import proofs.«146669_j9036611191395_2_alg».proof.Proof.Gen.ReferenceIdeal
import proofs.«146669_j9036611191395_2_alg».proof.Proof.Gen.Pre_finite_inputs
import proofs.«146669_j9036611191395_2_alg».proof.Proof.RefValue
import proofs.«146669_j9036611191395_2_alg».proof.Proof.Spread
import proofs.«146669_j9036611191395_2_alg».proof.Proof.Finite

noncomputable section

namespace Cert.Assemble

open Idealize.ShloMosaic Idealize.SL.Sem

/-- The kernel's run at the exact extended reals: its result array is the specification's result with the standard
    deviation from the raw second moment, of the four argument arrays, and the arguments are unchanged. -/
def KernelRun : Prop :=
    ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v2)
          = Cert.Spec.resultRaw (Cert.Spec.mat (m ((c.tc : Thread Cert.KernelIdeal.nD Cert.KernelIdeal.τ).loc Cert.KernelIdeal.main_arg0))) (Cert.Spec.mat (m ((c.tc : Thread Cert.KernelIdeal.nD Cert.KernelIdeal.τ).loc Cert.KernelIdeal.main_arg1)))
              (Cert.Spec.mat (m ((c.tc : Thread Cert.KernelIdeal.nD Cert.KernelIdeal.τ).loc Cert.KernelIdeal.main_arg2))) (Cert.Spec.vec (m ((c.tc : Thread Cert.KernelIdeal.nD Cert.KernelIdeal.τ).loc Cert.KernelIdeal.main_arg3)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

/-- The kernel as written runs and keeps its arguments. -/
theorem frame_kernel :
    Cert.frame_Kernel (hKernel := Cert.Kernel.Gen.facts) (hPre_finite_inputs := Cert.Pre_finite_inputs.Gen.facts) :=
  fun m ρ _ => Cert.Kernel.Gen.frame m ρ

/-- The kernel at the exact extended reals runs and keeps its arguments. -/
theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_reference :
    Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.RefSide.run m ρ)

/-- The three named constants: the table gives the first two the value `1/2048` and the third `1/2047`, and at the exact
    extended reals each printed constant is its table value. -/
theorem preserves : Cert.preserves_Kernel_KernelIdeal :=
  ⟨IdealRules.named_const.statement Cert.KernelIdeal.κ "a_exact_inv_2048" .f32 0x3A000000#32 ((1 / 2048 : ℝ) : EReal) rfl,
    IdealRules.named_const.statement Cert.KernelIdeal.κ "a_exact_inv_2048" .f32 0x3A000000#32 ((1 / 2048 : ℝ) : EReal) rfl,
    IdealRules.named_const.statement Cert.KernelIdeal.κ "inv_2047" .f32 0x3A001002#32 ((1 / 2047 : ℝ) : EReal) rfl⟩

/-- From memories that agree on the four arguments, all entries finite, both programs end with the specification's result
    (the standard deviation from the centred squares) of the kernel side's argument arrays.  The kernel's own value has
    the standard deviation from the raw second moment: the two agree because the entries of the first two arrays are
    real, which is where the precondition is used.  The reference's value is stated of its own argument arrays, which are
    the kernel side's by the agreement. -/
theorem algebraic (hker : KernelRun) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => Cert.Spec.resultCentred
      (Cert.Spec.mat (m ((c.tc : Thread Cert.KernelIdeal.nD Cert.KernelIdeal.τ).loc Cert.KernelIdeal.main_arg0)))
      (Cert.Spec.mat (m ((c.tc : Thread Cert.KernelIdeal.nD Cert.KernelIdeal.τ).loc Cert.KernelIdeal.main_arg1)))
      (Cert.Spec.mat (m ((c.tc : Thread Cert.KernelIdeal.nD Cert.KernelIdeal.τ).loc Cert.KernelIdeal.main_arg2)))
      (Cert.Spec.vec (m ((c.tc : Thread Cert.KernelIdeal.nD Cert.KernelIdeal.τ).loc Cert.KernelIdeal.main_arg3))), ?_, ?_⟩
  · refine (θ_run (Cert.KernelIdeal.defs (F := Ideal)) _ _).mono (fun _ h c => ⟨(h c).1.trans ?_, (h c).2⟩) (hker m ρ)
    exact Cert.Spec.resultRaw_eq_resultCentred _ _ _ _ (Cert.Finite.real_args m hpre c).1 (Cert.Finite.real_args m hpre c).2
  · refine (θ_run (Cert.ReferenceIdeal.defs (F := Ideal)) _ _).mono (fun _ h c => ⟨(h c).1.trans ?_, (h c).2⟩)
      (Cert.RefSide.run m' ρ')
    rw [(hagree c).1, (hagree c).2.1, (hagree c).2.2.1, (hagree c).2.2.2]

/-- Everything the certificate claims, given the kernel's run at the exact extended reals. -/
theorem claim_of (hker : KernelRun) : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic hker⟩

end Cert.Assemble

end
-- ==== Proof.KerPiecesC.lean ====
/-
  At a row block's last tile the four accumulators are updated as at a middle tile, and the output block is computed from the updated accumulators.
-/
import proofs.«146669_j9036611191395_2_alg».proof.Proof.Gen.KernelIdeal.Frame
import Idealize.ShloMosaic.Lib.Pipeline.Value

set_option maxRecDepth 16384

noncomputable section

namespace Cert.KerPieces

open Cert.KernelIdeal Cert.KernelIdeal.Gen Idealize.ShloMosaic Idealize.ShloMosaic.TcCoe Idealize.ShloMosaic.Tactic Idealize.SL.Sem

variable {F : FTy → Type} [FloatOps F] [Named F]

/-- What this case leaves in the scratch that carries the running sum: the body's arithmetic for it, of the point's input blocks
    and of what the point before left there. -/
theorem sout0_C_0_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    sout0_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay8 x0 x1 xs0 := by
  have hz : (![0, 0] : Fin 2 → Nat) = fun _ => 0 := funext fun a => by match a with | ⟨0, _⟩ => rfl | ⟨1, _⟩ => rfl
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running sum of squares: the body's arithmetic for it, of the point's input blocks
    and of what the point before left there. -/
theorem sout0_C_1_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    sout0_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay9 x0 x1 xs1 := by
  have hz : (![0, 0] : Fin 2 → Nat) = fun _ => 0 := funext fun a => by match a with | ⟨0, _⟩ => rfl | ⟨1, _⟩ => rfl
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running maximum: the body's arithmetic for it, of the point's input blocks
    and of what the point before left there. -/
theorem sout0_C_2_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    sout0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay1 (k0_pay11 x0 x2 xs2) := by
  have hz : (![0, 0] : Fin 2 → Nat) = fun _ => 0 := funext fun a => by match a with | ⟨0, _⟩ => rfl | ⟨1, _⟩ => rfl
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running minimum: the body's arithmetic for it, of the point's input blocks
    and of what the point before left there. -/
theorem sout0_C_3_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    sout0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay2 (k0_pay10 x0 x2) xs3 := by
  have hz : (![0, 0] : Fin 2 → Nat) = fun _ => 0 := funext fun a => by match a with | ⟨0, _⟩ => rfl | ⟨1, _⟩ => rfl
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What the last tile's case leaves in the output block: the closing arithmetic, of the four accumulators as this very
    point has just updated them, the weight block and the bias row. -/
theorem out0_C_5_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    out0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay3 (k0_pay8 x0 x1 xs0) (k0_pay9 x0 x1 xs1) (k0_pay8 x0 x1 xs0) (k0_pay8 x0 x1 xs0) (k0_pay1 (k0_pay11 x0 x2 xs2)) (k0_pay2 (k0_pay10 x0 x2) xs3) x3 x4 := by
  have hz : (![0, 0] : Fin 2 → Nat) = fun _ => 0 := funext fun a => by match a with | ⟨0, _⟩ => rfl | ⟨1, _⟩ => rfl
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

end Cert.KerPieces

end
-- ==== Proof.LibTileMin.lean ====
/-
  A minimum taken tile by tile.

  A kernel that looks for the smallest entry of a long row often walks the row in tiles of a fixed width: it keeps a
  running minimum, starts it at the top element, and at each tile replaces it by the smaller of itself and the tile's
  own minimum. The lemmas below say, in any complete linear order, that this running value after the tiles covering
  the indices below `cnt` is the infimum of the row over those indices (`below`), that the empty prefix gives the top
  element, that one more tile extends the prefix by the tile's width (`below_add`), and that the full prefix is the
  infimum of the whole row (`below_of_le`). A fold of `min` from the top element over a finite type is the infimum of
  the family (`fold_min_top_eq_iInf`), which is how a reduction with a `min` body reads.
-/
import Mathlib.Order.CompleteLattice.Finset
import Mathlib.Data.Finset.Fold
import Mathlib.Data.Fintype.Basic

namespace Cert.TileMin

variable {α : Type*} [CompleteLinearOrder α]

/-- `min` of two elements is their infimum. -/
theorem min_eq_inf (x y : α) : min x y = x ⊓ y :=
  le_antisymm (le_inf (min_le_left _ _) (min_le_right _ _)) (le_min inf_le_left inf_le_right)

/-- The fold of `min` from the top element over a finite set is the infimum of the family over the set. -/
theorem fold_min_top_eq_biInf {ι : Type*} [DecidableEq ι] (g : ι → α) (s : Finset ι) :
    s.fold min ⊤ g = ⨅ k ∈ s, g k := by
  induction s using Finset.induction_on with
  | empty => simp
  | insert a s ha ih => rw [Finset.fold_insert ha, ih, Finset.iInf_insert, min_eq_inf]

/-- The fold of `min` from the top element over a whole finite type is the infimum of the family. -/
theorem fold_min_top_eq_iInf {ι : Type*} [Fintype ι] (g : ι → α) :
    (Finset.univ : Finset ι).fold min ⊤ g = ⨅ k, g k := by
  classical
  rw [fold_min_top_eq_biInf]
  simp

/-- The infimum of `f` over the indices below `cnt`. -/
def below {N : ℕ} (f : Fin N → α) (cnt : ℕ) : α := ⨅ m : Fin N, ⨅ (_ : m.val < cnt), f m

/-- No index is below zero: the infimum over the empty prefix is the top element. -/
theorem below_zero {N : ℕ} (f : Fin N → α) : below f 0 = ⊤ := by
  unfold below
  simp

/-- Every index is below a bound that is at least the length: the prefix is the whole row. -/
theorem below_of_le {N : ℕ} (f : Fin N → α) {cnt : ℕ} (h : N ≤ cnt) : below f cnt = ⨅ m, f m := by
  unfold below
  exact iInf_congr fun m => iInf_pos (lt_of_lt_of_le m.isLt h)

/-- One more tile: the smaller of the prefix's infimum and the infimum of a tile of width `T` that holds the entries
    `cnt, cnt + 1, …, cnt + T - 1` is the infimum over the prefix extended by the tile. -/
theorem below_add {N T : ℕ} (f : Fin N → α) (cnt : ℕ) (hc : cnt + T ≤ N) (tile : Fin T → α)
    (ht : ∀ l : Fin T, tile l = f ⟨cnt + l.val, Nat.lt_of_lt_of_le (Nat.add_lt_add_left l.isLt cnt) hc⟩) :
    min (below f cnt) (⨅ l, tile l) = below f (cnt + T) := by
  unfold below
  apply le_antisymm
  · refine le_iInf fun m => le_iInf fun hm => ?_
    by_cases h : m.val < cnt
    · exact (min_le_left _ _).trans ((iInf_le _ m).trans (iInf_le _ h))
    · have hl : m.val - cnt < T := by omega
      refine (min_le_right _ _).trans ((iInf_le _ ⟨m.val - cnt, hl⟩).trans ?_)
      rw [ht]
      exact le_of_eq (congrArg f (Fin.ext (by show cnt + (m.val - cnt) = m.val; omega)))
  · refine le_min (le_iInf fun m => le_iInf fun hm => (iInf_le _ m).trans (iInf_le _ (by omega))) (le_iInf fun l => ?_)
    rw [ht]
    have hl := l.isLt
    exact (iInf_le _ _).trans (iInf_le _ (by show cnt + l.val < cnt + T; omega))

end Cert.TileMin
-- ==== Proof.LibTiles.lean ====
/-
  A maximum and a sum taken tile by tile.

  A long row is often walked in tiles of a fixed width while a running value is carried along: a running maximum
  that starts at the bottom element and at each tile becomes the larger of itself and the tile's own maximum, or a
  running sum that starts at zero and at each tile gains the tile's own sum. The lemmas below say, in any complete
  linear order, that the running maximum after the tiles covering the indices below `cnt` is the supremum of the row
  over those indices (`above`), that the empty prefix gives the bottom element, that one more tile extends the prefix
  by the tile's width (`above_add`), and that the full prefix is the supremum of the whole row (`above_of_le`). A fold
  of `max` from the bottom element over a finite type is the supremum of the family (`fold_max_bot_eq_iSup`). The
  same four statements hold for the running sum in any additive commutative monoid, with the prefix sum `psum` in
  place of the prefix supremum: `psum_zero`, `psum_add`, `psum_of_le`.
-/
import Mathlib.Order.CompleteLattice.Finset
import Mathlib.Data.Finset.Fold
import Mathlib.Data.Fintype.Basic
import Mathlib.Algebra.BigOperators.Fin

open scoped BigOperators

namespace Cert.Tiles

section Max

variable {α : Type*} [CompleteLinearOrder α]

/-- `max` of two elements is their supremum. -/
theorem max_eq_sup (x y : α) : max x y = x ⊔ y :=
  le_antisymm (max_le le_sup_left le_sup_right) (sup_le (le_max_left _ _) (le_max_right _ _))

/-- The fold of `max` from the bottom element over a finite set is the supremum of the family over the set. -/
theorem fold_max_bot_eq_biSup {ι : Type*} [DecidableEq ι] (g : ι → α) (s : Finset ι) :
    s.fold max ⊥ g = ⨆ k ∈ s, g k := by
  induction s using Finset.induction_on with
  | empty => simp
  | insert a s ha ih => rw [Finset.fold_insert ha, ih, Finset.iSup_insert, max_eq_sup]

/-- The fold of `max` from the bottom element over a whole finite type is the supremum of the family. -/
theorem fold_max_bot_eq_iSup {ι : Type*} [Fintype ι] (g : ι → α) :
    (Finset.univ : Finset ι).fold max ⊥ g = ⨆ k, g k := by
  classical
  rw [fold_max_bot_eq_biSup]
  simp

/-- The supremum of `f` over the indices below `cnt`. -/
def above {N : ℕ} (f : Fin N → α) (cnt : ℕ) : α := ⨆ m : Fin N, ⨆ (_ : m.val < cnt), f m

/-- No index is below zero: the supremum over the empty prefix is the bottom element. -/
theorem above_zero {N : ℕ} (f : Fin N → α) : above f 0 = ⊥ := by
  unfold above
  simp

/-- Every index is below a bound that is at least the length: the prefix is the whole row. -/
theorem above_of_le {N : ℕ} (f : Fin N → α) {cnt : ℕ} (h : N ≤ cnt) : above f cnt = ⨆ m, f m := by
  unfold above
  exact iSup_congr fun m => iSup_pos (lt_of_lt_of_le m.isLt h)

/-- One more tile: the larger of the prefix's supremum and the supremum of a tile of width `T` that holds the entries
    `cnt, cnt + 1, …, cnt + T - 1` is the supremum over the prefix extended by the tile. -/
theorem above_add {N T : ℕ} (f : Fin N → α) (cnt : ℕ) (hc : cnt + T ≤ N) (tile : Fin T → α)
    (ht : ∀ l : Fin T, tile l = f ⟨cnt + l.val, Nat.lt_of_lt_of_le (Nat.add_lt_add_left l.isLt cnt) hc⟩) :
    max (above f cnt) (⨆ l, tile l) = above f (cnt + T) := by
  unfold above
  have key : ∀ (m : Fin N) (c : ℕ), m.val < c → f m ≤ ⨆ m : Fin N, ⨆ (_ : m.val < c), f m := fun m c h =>
    le_trans (le_iSup (fun _ : m.val < c => f m) h) (le_iSup (fun m : Fin N => ⨆ (_ : m.val < c), f m) m)
  apply le_antisymm
  · refine max_le (iSup_le fun m => iSup_le fun hm => key m (cnt + T) (by omega)) (iSup_le fun l => ?_)
    rw [ht]
    have hl := l.isLt
    exact key _ (cnt + T) (by show cnt + l.val < cnt + T; omega)
  · refine iSup_le fun m => iSup_le fun hm => ?_
    by_cases h : m.val < cnt
    · exact (key m cnt h).trans (le_max_left _ _)
    · have hl : m.val - cnt < T := by omega
      refine le_trans ?_ ((le_iSup tile ⟨m.val - cnt, hl⟩).trans (le_max_right _ _))
      rw [ht]
      exact le_of_eq (congrArg f (Fin.ext (by show m.val = cnt + (m.val - cnt); omega)))

end Max

section Sum

variable {M : Type*} [AddCommMonoid M]

/-- The sum of `f` over the indices below `cnt`. -/
def psum {N : ℕ} (f : Fin N → M) (cnt : ℕ) : M := ∑ m : Fin N, if m.val < cnt then f m else 0

/-- No index is below zero: the sum over the empty prefix is zero. -/
theorem psum_zero {N : ℕ} (f : Fin N → M) : psum f 0 = 0 := by
  unfold psum
  simp

/-- Every index is below a bound that is at least the length: the prefix is the whole row. -/
theorem psum_of_le {N : ℕ} (f : Fin N → M) {cnt : ℕ} (h : N ≤ cnt) : psum f cnt = ∑ m, f m := by
  unfold psum
  exact Finset.sum_congr rfl fun m _ => if_pos (lt_of_lt_of_le m.isLt h)

/-- One more entry: the prefix sum up to `c + 1` is the prefix sum up to `c` plus the entry at `c`. -/
theorem psum_succ {N : ℕ} (f : Fin N → M) (c : ℕ) (h : c < N) : psum f (c + 1) = psum f c + f ⟨c, h⟩ := by
  unfold psum
  have split : ∀ m : Fin N, (if m.val < c + 1 then f m else 0)
      = (if m.val < c then f m else 0) + (if m = ⟨c, h⟩ then f m else 0) := by
    intro m
    by_cases h1 : m.val < c
    · have h2 : m ≠ ⟨c, h⟩ := fun e => absurd (congrArg Fin.val e) (Nat.ne_of_lt h1)
      have h3 : m.val < c + 1 := Nat.lt_succ_of_lt h1
      rw [if_pos h1, if_pos h3, if_neg h2, add_zero]
    · by_cases h2 : m = ⟨c, h⟩
      · have h3 : m.val < c + 1 := by rw [h2]; exact Nat.lt_succ_self c
        rw [if_neg h1, if_pos h3, if_pos h2, zero_add]
      · have h3 : ¬ m.val < c + 1 := by
          intro h4
          exact h2 (Fin.ext (by show m.val = c; omega))
        rw [if_neg h1, if_neg h3, if_neg h2, add_zero]
  rw [Finset.sum_congr rfl fun m _ => split m, Finset.sum_add_distrib, Finset.sum_ite_eq' Finset.univ (⟨c, h⟩ : Fin N) f,
    if_pos (Finset.mem_univ _)]

/-- One more tile: the prefix sum plus the sum of a tile of width `T` that holds the entries
    `cnt, cnt + 1, …, cnt + T - 1` is the sum over the prefix extended by the tile. -/
theorem psum_add {N T : ℕ} (f : Fin N → M) (cnt : ℕ) (hc : cnt + T ≤ N) (tile : Fin T → M)
    (ht : ∀ l : Fin T, tile l = f ⟨cnt + l.val, Nat.lt_of_lt_of_le (Nat.add_lt_add_left l.isLt cnt) hc⟩) :
    psum f cnt + ∑ l, tile l = psum f (cnt + T) := by
  induction T with
  | zero => simp
  | succ T ih =>
    have hc' : cnt + T ≤ N := by omega
    have hlast : cnt + T < N := by omega
    rw [Fin.sum_univ_castSucc, ← add_assoc, ih hc' (fun l => tile l.castSucc) (fun l => ht l.castSucc), ht (Fin.last T)]
    exact (psum_succ f (cnt + T) hlast).symm

end Sum

end Cert.Tiles
-- ==== Proof.Ops.lean ====
/-
  Four operations read at an index, at the exact extended reals, over arrays of literal extents.

  * The outer product: a 128×256 array and a 64×256 array, each given a unit axis and repeated along it, multiplied
    entry by entry: at `(r, k, j)` the product of the first at `(r, j)` and the second at `(k, j)`.
  * The maximum and the minimum along the last axis of a 128×64×256 array, started from `-∞` and `+∞`: at `(r, k)`
    the supremum and the infimum over `j` of the entries `(r, k, j)`.
  * Four tables of 64 columns laid side by side along the column axis, for any number of rows: column `q` of the
    result is column `q`, `q - 64`, `q - 128` or `q - 192` of the first, second, third or fourth table.
-/
import proofs.«146669_j9036611191395_2_alg».proof.Proof.LibTileMin
import proofs.«146669_j9036611191395_2_alg».proof.Proof.LibTiles
import Idealize.ShloMosaic.Lib.ValueIdx
import Idealize.ShloMosaic.Lib.Pipeline.Value
import Idealize.ShloMosaic.PureOps.Ideal.Laws

open scoped BigOperators

noncomputable section

namespace Cert.Ops

open Idealize.ShloMosaic Idealize.ShloMosaic.ValueIdx

/-- The word `0xFF800000` is `-∞`. -/
theorem ofBits_neg_inf : Ideal.ofBits .f32 0xFF800000#32 = (⊥ : EReal) := by simp [Ideal.ofBits, Ideal.ieee]

/-- The word `0x7F800000` is `+∞`. -/
theorem ofBits_pos_inf : Ideal.ofBits .f32 0x7F800000#32 = (⊤ : EReal) := by simp [Ideal.ofBits, Ideal.ieee]

/-- The outer product at `(r, k, j)`. -/
theorem outer_apply (v3 : FVec Ideal ⟨2, ![128, 256]⟩ .f32) (v5 : FVec Ideal ⟨2, ![64, 256]⟩ .f32)
    (h0 : (⟨2, ![64, 256]⟩ : Shape).ShapeCasts ⟨2, ![64, 256]⟩)
    (h1 : (⟨2, ![128, 256]⟩ : Shape).ShapeCasts ⟨3, ![128, 1, 256]⟩)
    (h2 : (⟨2, ![64, 256]⟩ : Shape).ShapeCasts ⟨3, ![1, 64, 256]⟩)
    (h3 : (⟨3, ![128, 1, 256]⟩ : Shape).Broadcasts ⟨3, ![128, 64, 256]⟩)
    (h4 : (⟨3, ![1, 64, 256]⟩ : Shape).Broadcasts ⟨3, ![128, 64, 256]⟩)
    (r : Fin 128) (k : Fin 64) (j : Fin 256) :
    mulf (broadcastTo ⟨3, ![128, 64, 256]⟩ (shapeCast ⟨3, ![128, 1, 256]⟩ v3 h1) h3)
        (broadcastTo ⟨3, ![128, 64, 256]⟩ (shapeCast ⟨3, ![1, 64, 256]⟩ (shapeCast ⟨2, ![64, 256]⟩ v5 h0) h2) h4) (ix3 r k j)
      = v3 (ix2 r j) * v5 (ix2 k j) := by
  rw [shapeCast_self]
  show broadcastTo ⟨3, ![128, 64, 256]⟩ (shapeCast ⟨3, ![128, 1, 256]⟩ v3 h1) h3 (ix3 r k j)
      * broadcastTo ⟨3, ![128, 64, 256]⟩ (shapeCast ⟨3, ![1, 64, 256]⟩ v5 h2) h4 (ix3 r k j) = _
  have e1 : broadcastTo ⟨3, ![128, 64, 256]⟩ (shapeCast ⟨3, ![128, 1, 256]⟩ v3 h1) h3 (ix3 r k j) = v3 (ix2 r j) := by
    refine (broadcastTo_apply _ h3 (ix3 r k j) (ix3 r (0 : Fin 1) j) fun ax => ?_).trans ?_
    · match ax with
      | ⟨0, _⟩ => rfl
      | ⟨1, _⟩ => rfl
      | ⟨2, _⟩ => rfl
    · refine shapeCast_apply v3 h1 (ix3 r (0 : Fin 1) j) (ix2 r j) ?_
      rw [Shape.rowMajor_val_three, Shape.rowMajor_val_two]
      show r.val * 256 + j.val = (r.val * 1 + 0) * 256 + j.val
      omega
  have e2 : broadcastTo ⟨3, ![128, 64, 256]⟩ (shapeCast ⟨3, ![1, 64, 256]⟩ v5 h2) h4 (ix3 r k j) = v5 (ix2 k j) := by
    refine (broadcastTo_apply _ h4 (ix3 r k j) (ix3 (0 : Fin 1) k j) fun ax => ?_).trans ?_
    · match ax with
      | ⟨0, _⟩ => rfl
      | ⟨1, _⟩ => rfl
      | ⟨2, _⟩ => rfl
    · refine shapeCast_apply v5 h2 (ix3 (0 : Fin 1) k j) (ix2 k j) ?_
      rw [Shape.rowMajor_val_three, Shape.rowMajor_val_two]
      show k.val * 256 + j.val = (0 * 64 + k.val) * 256 + j.val
      omega
  rw [e1, e2]

/-- The index a reduction along the last axis reads: `(r, k)` with `j` inserted is `(r, k, j)`. -/
theorem lift_last (h : (⟨3, ![128, 64, 256]⟩ : Shape).Reduces [2] ⟨2, ![128, 64]⟩) (r : Fin 128) (k : Fin 64) (j : Fin 256) :
    h.lift (ix2 r k) j = ix3 r k j :=
  funext fun a => Fin.ext (by match a with | ⟨0, _⟩ => rfl | ⟨1, _⟩ => rfl | ⟨2, _⟩ => rfl)

/-- The maximum along the last axis from `-∞`, at `(r, k)`: the supremum over `j`. -/
theorem laneMax_apply (src : FVec Ideal ⟨3, ![128, 64, 256]⟩ .f32) (h : (⟨3, ![128, 64, 256]⟩ : Shape).Reduces [2] ⟨2, ![128, 64]⟩)
    (hφ : FKind.Formats .f32) (hacc : (0xFF800000#32 : BitVec 32) = FKind.maximumf.neutral .f32 hφ) (r : Fin 128) (k : Fin 64) :
    multiReduction .maximumf [2] ⟨2, ![128, 64]⟩ src 0xFF800000#32 h hφ hacc (ix2 r k) = ⨆ j : Fin 256, src (ix3 r k j) := by
  refine (Ideal.multiReduction_maximumf_single src _ h hφ hacc (ix2 r k)).trans ?_
  show (Finset.univ : Finset (Fin 256)).fold max (Ideal.ofBits .f32 0xFF800000#32) (fun j => src (h.lift (ix2 r k) j)) = _
  rw [ofBits_neg_inf]
  exact (Cert.Tiles.fold_max_bot_eq_iSup _).trans (iSup_congr fun j => congrArg src (lift_last h r k j))

/-- The minimum along the last axis from `+∞`, at `(r, k)`: the infimum over `j`. -/
theorem laneMin_apply (src : FVec Ideal ⟨3, ![128, 64, 256]⟩ .f32) (h : (⟨3, ![128, 64, 256]⟩ : Shape).Reduces [2] ⟨2, ![128, 64]⟩)
    (hφ : FKind.Formats .f32) (hacc : (0x7F800000#32 : BitVec 32) = FKind.minimumf.neutral .f32 hφ) (r : Fin 128) (k : Fin 64) :
    multiReduction .minimumf [2] ⟨2, ![128, 64]⟩ src 0x7F800000#32 h hφ hacc (ix2 r k) = ⨅ j : Fin 256, src (ix3 r k j) := by
  rw [multiReduction_minimumf_eq_fold]
  refine (h.fold_filter_drop_single _ _ src (ix2 r k)).trans ?_
  show (Finset.univ : Finset (Fin 256)).fold min (Ideal.ofBits .f32 0x7F800000#32) (fun j => src (h.lift (ix2 r k) j)) = _
  rw [ofBits_pos_inf]
  exact (Cert.TileMin.fold_min_top_eq_iInf _).trans (iInf_congr fun j => congrArg src (lift_last h r k j))

end Cert.Ops

end
-- ==== Proof.LibCat4.lean ====
/-
  Four tables of 64 columns laid side by side along the column axis, for any number `R` of rows, read at `(r, q)`:
  column `q` of the result is column `q`, `q - 64`, `q - 128` or `q - 192` of the first, second, third or fourth
  table, according to the band of 64 columns in which `q` lies.
-/
import Idealize.ShloMosaic.Lib.ValueIdx
import Idealize.ShloMosaic.Lib.Pipeline.Value

noncomputable section

namespace Cert.Cat4

open Idealize.ShloMosaic Idealize.ShloMosaic.ValueIdx

variable {α : Type}

/-- Four families of 64 columns side by side, as a function of the row and of the column `q < 256`. -/
def sideBySide {R : ℕ} (a b c d : Fin R → Fin 64 → α) : Fin R → Fin 256 → α := fun r q =>
  if h : q.val < 64 then a r ⟨q.val, h⟩
  else if h2 : q.val < 128 then b r ⟨q.val - 64, by omega⟩
  else if h3 : q.val < 192 then c r ⟨q.val - 128, by omega⟩
  else d r ⟨q.val - 192, by omega⟩

/-- One band: the piece at position `k` of the four, whose columns start at `64 * k`. -/
theorem band {R : ℕ} (xs : List ((s : Shape) × (s.Idx → α)))
    (h : Shape.Concatenates (xs.map (·.1)) ⟨2, ![R, 256]⟩ 1) (r : Fin R) (q : Fin 256)
    (k : ℕ) (hk : k < xs.length) (x : (⟨2, ![R, 64]⟩ : Shape).Idx → α) (hxk : xs[k] = ⟨⟨2, ![R, 64]⟩, x⟩)
    (pre : ℕ)
    (hpre : (((xs.take k).map (·.1)).map fun s => if h : s.rank = (⟨2, ![R, 256]⟩ : Shape).rank then s.size ((1 : Fin 2).cast h.symm) else 0).sum = pre)
    (hlo : pre ≤ q.val) (hhi : q.val < pre + 64) :
    concatenate ⟨2, ![R, 256]⟩ 1 xs h (ix2 r q) = x (ix2 r ⟨q.val - pre, by omega⟩) := by
  refine concatenate_apply_piece (1 : Fin 2) xs h (ix2 r q) k hk ⟨2, ![R, 64]⟩ x hxk rfl pre hpre (ix2 r ⟨q.val - pre, by omega⟩) ?_ ?_
  · intro b hb
    match b with
    | ⟨0, _⟩ => rfl
    | ⟨1, _⟩ => exact absurd rfl hb
  · show pre + (q.val - pre) = q.val
    omega

/-- The four-piece concatenation at `(r, q)`. -/
theorem cat4_apply {R : ℕ} (a b c d : (⟨2, ![R, 64]⟩ : Shape).Idx → α)
    (h : Shape.Concatenates [(⟨2, ![R, 64]⟩ : Shape), ⟨2, ![R, 64]⟩, ⟨2, ![R, 64]⟩, ⟨2, ![R, 64]⟩] ⟨2, ![R, 256]⟩ 1)
    (r : Fin R) (q : Fin 256) :
    concatenate ⟨2, ![R, 256]⟩ 1 [⟨⟨2, ![R, 64]⟩, a⟩, ⟨⟨2, ![R, 64]⟩, b⟩, ⟨⟨2, ![R, 64]⟩, c⟩, ⟨⟨2, ![R, 64]⟩, d⟩] h (ix2 r q)
      = sideBySide (fun i j => a (ix2 i j)) (fun i j => b (ix2 i j)) (fun i j => c (ix2 i j)) (fun i j => d (ix2 i j)) r q := by
  unfold sideBySide
  have hq := q.isLt
  by_cases h0 : q.val < 64
  · rw [dif_pos h0]
    exact band [⟨⟨2, ![R, 64]⟩, a⟩, ⟨⟨2, ![R, 64]⟩, b⟩, ⟨⟨2, ![R, 64]⟩, c⟩, ⟨⟨2, ![R, 64]⟩, d⟩] h r q 0 (by simp) a rfl 0 rfl (Nat.zero_le _) (by omega)
  · rw [dif_neg h0]
    by_cases h1 : q.val < 128
    · rw [dif_pos h1]
      exact band [⟨⟨2, ![R, 64]⟩, a⟩, ⟨⟨2, ![R, 64]⟩, b⟩, ⟨⟨2, ![R, 64]⟩, c⟩, ⟨⟨2, ![R, 64]⟩, d⟩] h r q 1 (by simp) b rfl 64 rfl (by omega) (by omega)
    · rw [dif_neg h1]
      by_cases h2 : q.val < 192
      · rw [dif_pos h2]
        exact band [⟨⟨2, ![R, 64]⟩, a⟩, ⟨⟨2, ![R, 64]⟩, b⟩, ⟨⟨2, ![R, 64]⟩, c⟩, ⟨⟨2, ![R, 64]⟩, d⟩] h r q 2 (by simp) c rfl 128 rfl (by omega) (by omega)
      · rw [dif_neg h2]
        exact band [⟨⟨2, ![R, 64]⟩, a⟩, ⟨⟨2, ![R, 64]⟩, b⟩, ⟨⟨2, ![R, 64]⟩, c⟩, ⟨⟨2, ![R, 64]⟩, d⟩] h r q 3 (by simp) d rfl 192 rfl (by omega) (by omega)

end Cert.Cat4

end
-- ==== Proof.KerPay.lean ====
/-
  The kernel body's arithmetic, read at an index at the exact extended reals.

  Per tile the body updates four 128×64 accumulators from the 128×256 block `x` of the first argument and the 256×64
  block `y` of the second (and `y`'s transpose `z`, 64×256):
    the sum      acc + ∑ j, x r j · y j k,
    the squares  acc + ∑ j, (x r j · x r j) · (y j k · y j k),
    the maximum  max acc (⨆ j, x r j · z k j),
    the minimum  min acc (⨅ j, x r j · z k j),
  the four starting from 0, 0, -∞ and +∞. At the last tile the four accumulators `s0 … s3` give the row
  `[s0 / 2048 | s2 | s3 | √(max ((s1 - s0 · s0 / 2048) / 2047) 0)]` of 256 entries, and the output block is
  `tanh (row · W + b)`, the divisions being products with the named reciprocals 1/2048 and 1/2047.
-/
import proofs.«146669_j9036611191395_2_alg».proof.Proof.Gen.KernelIdeal.Skeleton
import proofs.«146669_j9036611191395_2_alg».proof.Proof.Ops
import proofs.«146669_j9036611191395_2_alg».proof.Proof.LibCat4
import proofs.«146669_j9036611191395_2_alg».proof.Proof.LibPlainDot
import Idealize.ShloMosaic.Lib.ValueLayout
import Idealize.ShloMosaic.PureOps.IdealRules

open scoped BigOperators

noncomputable section

namespace Cert.KerPay

open Idealize.ShloMosaic Idealize.ShloMosaic.ValueIdx Idealize.ShloMosaic.TcCoe Cert.KernelIdeal Cert.KernelIdeal.Gen

/-- The first named reciprocal is the rational 1/2048. -/
theorem inv2048 : Named.named (F := Ideal) Cert.KernelIdeal.κ "a_exact_inv_2048" (φ := .f32) 0x3A000000#32 = ((1 / 2048 : ℝ) : EReal) :=
  IdealRules.named_const.ideal_named_scalar _ _ _ _ rfl

/-- The second named reciprocal is the rational 1/2047. -/
theorem inv2047 : Named.named (F := Ideal) Cert.KernelIdeal.κ "inv_2047" (φ := .f32) 0x3A001002#32 = ((1 / 2047 : ℝ) : EReal) :=
  IdealRules.named_const.ideal_named_scalar _ _ _ _ rfl

/-! ## The four starting values -/

theorem pay4_apply (y : S128x64.Idx) : k0_pay4 (F := Ideal) y = 0 := by
  unfold k0_pay4; rw [shapeCast_self]; exact Ideal.ofBits_zero_f32

theorem pay5_apply (y : S128x64.Idx) : k0_pay5 (F := Ideal) y = 0 := by
  unfold k0_pay5; rw [shapeCast_self]; exact Ideal.ofBits_zero_f32

theorem pay6_apply (y : S128x64.Idx) : k0_pay6 (F := Ideal) y = (⊥ : EReal) := by
  unfold k0_pay6; rw [shapeCast_self]; exact Cert.Ops.ofBits_neg_inf

theorem pay7_apply (y : S128x64.Idx) : k0_pay7 (F := Ideal) y = (⊤ : EReal) := by
  unfold k0_pay7; rw [shapeCast_self]; exact Cert.Ops.ofBits_pos_inf

/-! ## One tile's update of each accumulator -/

/-- The sum accumulator after a tile. -/
theorem pay8_apply (x : FVec Ideal S128x256 .f32) (y : FVec Ideal S256x64 .f32) (acc : FVec Ideal S128x64 .f32) (r : Fin 128) (k : Fin 64) :
    k0_pay8 x y acc (ix2 r k) = acc (ix2 r k) + ∑ j : Fin 256, x (ix2 r j) * y (ix2 j k) := by
  unfold k0_pay8
  rw [shapeCast_self]
  show acc (ix2 r k) + _ = _
  exact congrArg (acc (ix2 r k) + ·) (Cert.PlainDot.matmul_zero_apply (M := 128) (K := 256) (N := 64) none x y r k)

/-- The sum-of-squares accumulator after a tile. -/
theorem pay9_apply (x : FVec Ideal S128x256 .f32) (y : FVec Ideal S256x64 .f32) (acc : FVec Ideal S128x64 .f32) (r : Fin 128) (k : Fin 64) :
    k0_pay9 x y acc (ix2 r k) = acc (ix2 r k) + ∑ j : Fin 256, (x (ix2 r j) * x (ix2 r j)) * (y (ix2 j k) * y (ix2 j k)) := by
  unfold k0_pay9
  rw [shapeCast_self]
  show acc (ix2 r k) + _ = _
  exact congrArg (acc (ix2 r k) + ·) (Cert.PlainDot.matmul_zero_apply (M := 128) (K := 256) (N := 64) none (mulf x x) (mulf y y) r k)

/-- The tile's products at `(r, k, j)`. -/
theorem pay10_apply (x : FVec Ideal S128x256 .f32) (z : FVec Ideal S64x256 .f32) (r : Fin 128) (k : Fin 64) (j : Fin 256) :
    k0_pay10 x z (ix3 r k j) = x (ix2 r j) * z (ix2 k j) := by
  unfold k0_pay10
  exact Cert.Ops.outer_apply x z _ _ _ _ _ r k j

/-- The maximum accumulator after a tile. -/
theorem pay11_apply (x : FVec Ideal S128x256 .f32) (z : FVec Ideal S64x256 .f32) (acc : FVec Ideal S128x64 .f32) (r : Fin 128) (k : Fin 64) :
    k0_pay1 (k0_pay11 x z acc) (ix2 r k) = max (acc (ix2 r k)) (⨆ j : Fin 256, x (ix2 r j) * z (ix2 k j)) := by
  unfold k0_pay1 k0_pay11
  rw [shapeCast_self]
  show max (acc (ix2 r k)) _ = _
  refine congrArg (max (acc (ix2 r k))) ?_
  refine (Cert.Ops.laneMax_apply (k0_pay10 x z) _ _ _ r k).trans ?_
  exact iSup_congr fun j => pay10_apply x z r k j

/-- The minimum accumulator after a tile. -/
theorem pay2_apply (x : FVec Ideal S128x256 .f32) (z : FVec Ideal S64x256 .f32) (acc : FVec Ideal S128x64 .f32) (r : Fin 128) (k : Fin 64) :
    k0_pay2 (k0_pay10 x z) acc (ix2 r k) = min (acc (ix2 r k)) (⨅ j : Fin 256, x (ix2 r j) * z (ix2 k j)) := by
  unfold k0_pay2
  rw [shapeCast_self]
  show min (acc (ix2 r k)) _ = _
  refine congrArg (min (acc (ix2 r k))) ?_
  refine (Cert.Ops.laneMin_apply (k0_pay10 x z) _ _ _ r k).trans ?_
  exact iInf_congr fun j => pay10_apply x z r k j

/-! ## The last tile's closing arithmetic -/

/-- The mean a block row's sum accumulator gives. -/
def meanOf (s0 : FVec Ideal S128x64 .f32) : Fin 128 → Fin 64 → EReal := fun i j => s0 (ix2 i j) * ((1 / 2048 : ℝ) : EReal)

/-- The standard deviation the sum and sum-of-squares accumulators give. -/
def spreadOf (s0 s1 : FVec Ideal S128x64 .f32) : Fin 128 → Fin 64 → EReal := fun i j =>
  Ideal.sqrt (max ((s1 (ix2 i j) - s0 (ix2 i j) * s0 (ix2 i j) * ((1 / 2048 : ℝ) : EReal)) * ((1 / 2047 : ℝ) : EReal)) 0)

/-- The output block at `(r, o)`. -/
theorem pay3_apply (s0 s1 s2 s3 : FVec Ideal S128x64 .f32) (w : FVec Ideal S256x128 .f32) (b : FVec Ideal S1x128 .f32) (r o : Fin 128) :
    k0_pay3 (F := Ideal) s0 s1 s0 s0 s2 s3 w b (ix2 r o)
      = Ideal.tanh ((∑ q : Fin 256, Cert.Cat4.sideBySide (meanOf s0) (fun i j => s2 (ix2 i j)) (fun i j => s3 (ix2 i j)) (spreadOf s0 s1) r q * w (ix2 q o))
          + b (ix2 (0 : Fin 1) o)) := by
  unfold k0_pay3
  rw [shapeCast_self]
  show Ideal.tanh (_ + _) = _
  refine congrArg Ideal.tanh ?_
  refine congrArg₂ (· + ·) ?_ (broadcastTo_1b_ab_apply b _ r o)
  refine (Cert.PlainDot.matmul_zero_apply (M := 128) (K := 256) (N := 128) none _ _ r o).trans ?_
  refine Finset.sum_congr rfl fun q _ => congrArg (· * w (ix2 q o)) ?_
  refine (Cert.Cat4.cat4_apply (R := 128) _ _ _ _ concatenates_S128x64_S128x64_S128x64_S128x64_S128x256_d1 r q).trans ?_
  refine congrArg₂ (fun f g => Cert.Cat4.sideBySide f (fun i j => s2 (ix2 i j)) (fun i j => s3 (ix2 i j)) g r q) ?_ ?_
  · funext i j
    unfold meanOf
    show s0 (ix2 i j) * Named.named (F := Ideal) Cert.KernelIdeal.κ "a_exact_inv_2048" (φ := .f32) 0x3A000000#32 = _
    rw [inv2048]
  · funext i j
    unfold spreadOf
    show Ideal.sqrt (max ((s1 (ix2 i j) - s0 (ix2 i j) * s0 (ix2 i j) * Named.named (F := Ideal) Cert.KernelIdeal.κ "a_exact_inv_2048" (φ := .f32) 0x3A000000#32)
        * Named.named (F := Ideal) Cert.KernelIdeal.κ "inv_2047" (φ := .f32) 0x3A001002#32) (Ideal.ofBits .f32 0x00000000#32)) = _
    rw [inv2048, inv2047, Ideal.ofBits_zero_f32]

end Cert.KerPay

end
-- ==== Proof.KerPiecesA.lean ====
/-
  At a row block's first tile the four accumulators are stored afresh (zero, zero, -∞, +∞) and then updated with the tile: what each holds afterwards.
-/
import proofs.«146669_j9036611191395_2_alg».proof.Proof.Gen.KernelIdeal.Frame
import Idealize.ShloMosaic.Lib.Pipeline.Value

set_option maxRecDepth 16384

noncomputable section

namespace Cert.KerPieces

open Cert.KernelIdeal Cert.KernelIdeal.Gen Idealize.ShloMosaic Idealize.ShloMosaic.TcCoe Idealize.ShloMosaic.Tactic Idealize.SL.Sem

variable {F : FTy → Type} [FloatOps F] [Named F]

/-- What this case leaves in the scratch that carries the running sum: the body's arithmetic for it, of the point's input blocks
    and of the value the case itself stored first. -/
theorem sout0_A_0_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : cond0_0 i) (hc1 : ¬cond0_1 i) (x0 : Vec F S128x256 .f32) (x1 : Vec F S256x64 .f32) (x2 : Vec F S64x256 .f32) (x3 : Vec F S256x128 .f32) (x4 : Vec F S1x128 .f32) :
    sout0_A_0 c i arg2 harg2 arg3 harg3 arg4 harg4 arg5 harg5 arg6 harg6 arg7 harg7 arg8 harg8 arg9 harg9 arg10 harg10 arg11 harg11 hc0 hc1 x0 x1 x2 x3 x4 = k0_pay8 x0 x1 (k0_pay4 (F := F)) := by
  have hz : (![0, 0] : Fin 2 → Nat) = fun _ => 0 := funext fun a => by match a with | ⟨0, _⟩ => rfl | ⟨1, _⟩ => rfl
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running sum of squares: the body's arithmetic for it, of the point's input blocks
    and of the value the case itself stored first. -/
theorem sout0_A_1_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : cond0_0 i) (hc1 : ¬cond0_1 i) (x0 : Vec F S128x256 .f32) (x1 : Vec F S256x64 .f32) (x2 : Vec F S64x256 .f32) (x3 : Vec F S256x128 .f32) (x4 : Vec F S1x128 .f32) :
    sout0_A_1 c i arg2 harg2 arg3 harg3 arg4 harg4 arg5 harg5 arg6 harg6 arg7 harg7 arg8 harg8 arg9 harg9 arg10 harg10 arg11 harg11 hc0 hc1 x0 x1 x2 x3 x4 = k0_pay9 x0 x1 (k0_pay5 (F := F)) := by
  have hz : (![0, 0] : Fin 2 → Nat) = fun _ => 0 := funext fun a => by match a with | ⟨0, _⟩ => rfl | ⟨1, _⟩ => rfl
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running maximum: the body's arithmetic for it, of the point's input blocks
    and of the value the case itself stored first. -/
theorem sout0_A_2_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : cond0_0 i) (hc1 : ¬cond0_1 i) (x0 : Vec F S128x256 .f32) (x1 : Vec F S256x64 .f32) (x2 : Vec F S64x256 .f32) (x3 : Vec F S256x128 .f32) (x4 : Vec F S1x128 .f32) :
    sout0_A_2 c i arg2 harg2 arg3 harg3 arg4 harg4 arg5 harg5 arg6 harg6 arg7 harg7 arg8 harg8 arg9 harg9 arg10 harg10 arg11 harg11 hc0 hc1 x0 x1 x2 x3 x4 = k0_pay1 (k0_pay11 x0 x2 (k0_pay6 (F := F))) := by
  have hz : (![0, 0] : Fin 2 → Nat) = fun _ => 0 := funext fun a => by match a with | ⟨0, _⟩ => rfl | ⟨1, _⟩ => rfl
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running minimum: the body's arithmetic for it, of the point's input blocks
    and of the value the case itself stored first. -/
theorem sout0_A_3_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : cond0_0 i) (hc1 : ¬cond0_1 i) (x0 : Vec F S128x256 .f32) (x1 : Vec F S256x64 .f32) (x2 : Vec F S64x256 .f32) (x3 : Vec F S256x128 .f32) (x4 : Vec F S1x128 .f32) :
    sout0_A_3 c i arg2 harg2 arg3 harg3 arg4 harg4 arg5 harg5 arg6 harg6 arg7 harg7 arg8 harg8 arg9 harg9 arg10 harg10 arg11 harg11 hc0 hc1 x0 x1 x2 x3 x4 = k0_pay2 (k0_pay10 x0 x2) (k0_pay7 (F := F)) := by
  have hz : (![0, 0] : Fin 2 → Nat) = fun _ => 0 := funext fun a => by match a with | ⟨0, _⟩ => rfl | ⟨1, _⟩ => rfl
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

end Cert.KerPieces

end
-- ==== Proof.KerPiecesB.lean ====
/-
  At a middle tile each of the four accumulators is updated with the tile over what the tile before left: what each holds afterwards.
-/
import proofs.«146669_j9036611191395_2_alg».proof.Proof.Gen.KernelIdeal.Frame
import Idealize.ShloMosaic.Lib.Pipeline.Value

set_option maxRecDepth 16384

noncomputable section

namespace Cert.KerPieces

open Cert.KernelIdeal Cert.KernelIdeal.Gen Idealize.ShloMosaic Idealize.ShloMosaic.TcCoe Idealize.ShloMosaic.Tactic Idealize.SL.Sem

variable {F : FTy → Type} [FloatOps F] [Named F]

/-- What this case leaves in the scratch that carries the running sum: the body's arithmetic for it, of the point's input blocks
    and of what the point before left there. -/
theorem sout0_B_0_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : ¬cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    sout0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay8 x0 x1 xs0 := by
  have hz : (![0, 0] : Fin 2 → Nat) = fun _ => 0 := funext fun a => by match a with | ⟨0, _⟩ => rfl | ⟨1, _⟩ => rfl
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running sum of squares: the body's arithmetic for it, of the point's input blocks
    and of what the point before left there. -/
theorem sout0_B_1_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : ¬cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    sout0_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay9 x0 x1 xs1 := by
  have hz : (![0, 0] : Fin 2 → Nat) = fun _ => 0 := funext fun a => by match a with | ⟨0, _⟩ => rfl | ⟨1, _⟩ => rfl
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running maximum: the body's arithmetic for it, of the point's input blocks
    and of what the point before left there. -/
theorem sout0_B_2_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : ¬cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    sout0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay1 (k0_pay11 x0 x2 xs2) := by
  have hz : (![0, 0] : Fin 2 → Nat) = fun _ => 0 := funext fun a => by match a with | ⟨0, _⟩ => rfl | ⟨1, _⟩ => rfl
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

/-- What this case leaves in the scratch that carries the running minimum: the body's arithmetic for it, of the point's input blocks
    and of what the point before left there. -/
theorem sout0_B_3_eq (c : Dev nD) (i : grid0.Coords) (arg2 : Memref sig .tc .vmem S128x256 .f32) (harg2 : arg2.IsWhole) (arg3 : Memref sig .tc .vmem S256x64 .f32) (harg3 : arg3.IsWhole) (arg4 : Memref sig .tc .vmem S64x256 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x64 .f32) (harg8 : arg8.IsWhole) (arg9 : Memref sig .tc .vmem S128x64 .f32) (harg9 : arg9.IsWhole) (arg10 : Memref sig .tc .vmem S128x64 .f32) (harg10 : arg10.IsWhole) (arg11 : Memref sig .tc .vmem S128x64 .f32) (harg11 : arg11.IsWhole) (hc0 : ¬cond0_0 i) (hc1 : ¬cond0_1 i) (x0 : Vec F S128x256 .f32) (x1 : Vec F S256x64 .f32) (x2 : Vec F S64x256 .f32) (x3 : Vec F S256x128 .f32) (x4 : Vec F S1x128 .f32) (xs0 : Vec F S128x64 .f32) (xs1 : Vec F S128x64 .f32) (xs2 : Vec F S128x64 .f32) (xs3 : Vec F S128x64 .f32) :
    sout0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay2 (k0_pay10 x0 x2) xs3 := by
  have hz : (![0, 0] : Fin 2 → Nat) = fun _ => 0 := funext fun a => by match a with | ⟨0, _⟩ => rfl | ⟨1, _⟩ => rfl
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first
    | rw [View.canon_unit_zero hz]
    | rw [View.canon_cons_unit_zero hz]
  simp only [View.readAt_eq_ld, View.readCov_unit_zero (S := S128x64) _ hz, harg2.read_unread, harg3.read_unread, harg4.read_unread,
    harg5.read_unread, harg6.read_unread, harg8.read_unread, harg9.read_unread, harg10.read_unread, harg11.read_unread,
    View.ld_unit_zero (S := S128x256) hz, View.ld_unit_zero (S := S256x64) hz, View.ld_unit_zero (S := S64x256) hz,
    View.ld_unit_zero (S := S256x128) hz, View.ld_unit_zero (S := S1x128) hz, View.ld_unit_zero (S := S128x64) hz]
  try rfl

end Cert.KerPieces

end
-- ==== Proof.KerStep.lean ====
/-
  One step of each of the four carried accumulators, in closed form.

  Each block of 128 rows is walked in 8 tiles, the grid points `8q, …, 8q + 7`, and four 128×64 accumulators are
  carried from tile to tile: a running sum, a running sum of squares, a running maximum and a running minimum. At a
  point `n` three cases can occur. At the first tile of a block (`n % 8 = 0`) the accumulator is stored afresh with its
  starting value and then updated with the tile, so what the point before left does not enter. At a middle tile and
  at the last tile (`n % 8 = 7`) the accumulator is updated with the tile over what the point before left. In all
  three cases the update is the same function of the point's input blocks and of the value it starts from; only the
  value it starts from differs. The four theorems below say exactly this: the step at `n` is the update applied to
  the starting value when `n % 8 = 0` and to the previous contents otherwise. The two conditions `n % 8 = 0` and
  `n % 8 = 7` cannot hold together, which disposes of the fourth combination.
-/
import proofs.«146669_j9036611191395_2_alg».proof.Proof.Gen.KernelIdeal.Value
import proofs.«146669_j9036611191395_2_alg».proof.Proof.KerPiecesA
import proofs.«146669_j9036611191395_2_alg».proof.Proof.KerPiecesB
import proofs.«146669_j9036611191395_2_alg».proof.Proof.KerPiecesC

noncomputable section

namespace Cert.KerStep

open Cert.KernelIdeal Cert.KernelIdeal.Gen Cert.KernelIdeal.Value Idealize.ShloMosaic Idealize.ShloMosaic.TcCoe Idealize.SL.Sem

variable {F : FTy → Type} [FloatOps F] [Named F]
variable (m : (ℓ : Loc nD τ sig) → Buf (Elt F) ℓ) (c : Dev nD)

/-- The running sum after point `n`: the sum update of the point's two input blocks, started from the fresh starting value at the
    first tile of a block and from the previous contents at every other tile. -/
theorem scAt0_0_eq (n : ℕ) (hb : n < cfg0.N) (acc : Vec F S128x64 .f32) :
    scAt0_0 m c n hb acc = k0_pay8 (iblk m c 0 ⟨n, hb⟩) (iblk m c 1 ⟨n, hb⟩) (if n % 8 = 0 then k0_pay4 (F := F) else acc) := by
  unfold scAt0_0
  by_cases h0 : n % 8 = 0 <;> by_cases h1 : n % 8 = 7
  · exfalso; omega
  · rw [dif_pos h0, dif_neg h1, if_pos h0]
    exact Cert.KerPieces.sout0_A_0_eq ..
  · rw [dif_neg h0, dif_pos h1, if_neg h0]
    exact Cert.KerPieces.sout0_C_0_eq ..
  · rw [dif_neg h0, dif_neg h1, if_neg h0]
    exact Cert.KerPieces.sout0_B_0_eq ..

/-- The running sum of squares after point `n`: the update of the point's two input blocks, started from the fresh starting
    value at the first tile of a block and from the previous contents at every other tile. -/
theorem scAt0_1_eq (n : ℕ) (hb : n < cfg0.N) (acc : Vec F S128x64 .f32) :
    scAt0_1 m c n hb acc = k0_pay9 (iblk m c 0 ⟨n, hb⟩) (iblk m c 1 ⟨n, hb⟩) (if n % 8 = 0 then k0_pay5 (F := F) else acc) := by
  unfold scAt0_1
  by_cases h0 : n % 8 = 0 <;> by_cases h1 : n % 8 = 7
  · exfalso; omega
  · rw [dif_pos h0, dif_neg h1, if_pos h0]
    exact Cert.KerPieces.sout0_A_1_eq ..
  · rw [dif_neg h0, dif_pos h1, if_neg h0]
    exact Cert.KerPieces.sout0_C_1_eq ..
  · rw [dif_neg h0, dif_neg h1, if_neg h0]
    exact Cert.KerPieces.sout0_B_1_eq ..

/-- The running maximum after point `n`: the maximum update of the point's two input blocks, started from the fresh starting
    value at the first tile of a block and from the previous contents at every other tile. -/
theorem scAt0_2_eq (n : ℕ) (hb : n < cfg0.N) (acc : Vec F S128x64 .f32) :
    scAt0_2 m c n hb acc = k0_pay1 (k0_pay11 (iblk m c 0 ⟨n, hb⟩) (iblk m c 2 ⟨n, hb⟩) (if n % 8 = 0 then k0_pay6 (F := F) else acc)) := by
  unfold scAt0_2
  by_cases h0 : n % 8 = 0 <;> by_cases h1 : n % 8 = 7
  · exfalso; omega
  · rw [dif_pos h0, dif_neg h1, if_pos h0]
    exact Cert.KerPieces.sout0_A_2_eq ..
  · rw [dif_neg h0, dif_pos h1, if_neg h0]
    exact Cert.KerPieces.sout0_C_2_eq ..
  · rw [dif_neg h0, dif_neg h1, if_neg h0]
    exact Cert.KerPieces.sout0_B_2_eq ..

/-- The running minimum after point `n`: the minimum update of the point's two input blocks, started from the fresh starting
    value at the first tile of a block and from the previous contents at every other tile. -/
theorem scAt0_3_eq (n : ℕ) (hb : n < cfg0.N) (acc : Vec F S128x64 .f32) :
    scAt0_3 m c n hb acc = k0_pay2 (k0_pay10 (iblk m c 0 ⟨n, hb⟩) (iblk m c 2 ⟨n, hb⟩)) (if n % 8 = 0 then k0_pay7 (F := F) else acc) := by
  unfold scAt0_3
  by_cases h0 : n % 8 = 0 <;> by_cases h1 : n % 8 = 7
  · exfalso; omega
  · rw [dif_pos h0, dif_neg h1, if_pos h0]
    exact Cert.KerPieces.sout0_A_3_eq ..
  · rw [dif_neg h0, dif_pos h1, if_neg h0]
    exact Cert.KerPieces.sout0_C_3_eq ..
  · rw [dif_neg h0, dif_neg h1, if_neg h0]
    exact Cert.KerPieces.sout0_B_3_eq ..

end Cert.KerStep

end
-- ==== Proof.KerBlocks.lean ====
/-
  Where the kernel's windows sit in the arrays.

  The kernel runs over a 16 × 8 grid of 128 points; point `t` has row block `t / 8` and tile `t % 8`. At point
  `t` it reads the 128 × 256 block of the first argument at block row `t / 8` and block column `t % 8`, the
  256 × 64 block of the second argument at block row `t % 8`, the 64 × 256 block of the second argument's
  transpose at block column `t % 8`, the whole third argument and the fourth argument as one row; at the
  points with `t % 8 = 7` it writes the 128 × 128 block of the result at block row `t / 8`. An element of a
  block sits in the array, on each axis, at the block index times the block's size plus its own coordinate.
-/
import proofs.«146669_j9036611191395_2_alg».proof.Proof.Gen.KernelIdeal.Value
import Idealize.ShloMosaic.Lib.Pipeline.Value
import Idealize.ShloMosaic.Lib.ValueIdx
import Idealize.ShloMosaic.Lib.ValueLayout

noncomputable section

namespace Cert.KerBlocks

open Cert.KernelIdeal Cert.KernelIdeal.Gen Idealize.ShloMosaic Idealize.ShloMosaic.ValueIdx Idealize.ShloMosaic.TcCoe Idealize.SL.Sem
open Idealize.ShloMosaic.Pipeline (Dat)

/-- The grid has 128 points. -/
theorem point_lt (t : Fin cfg0.N) : t.val < 128 := lt_of_lt_of_eq t.isLt N_0

/-- The printed index maps over the grid: the block indices of the six windows at point `t`. -/
theorem index_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 8 ∧ win0_5.index t (1 : Fin 2) = 0 :=
  (by decide +kernel : ∀ t : Fin grid0.N, _)

variable (m : (ℓ : Loc nD τ sig) → Buf (Elt Ideal) ℓ) (c : Dev nD) (t : Fin cfg0.N)

/-- The coordinates built below stay inside the arrays. -/
theorem row_lt (r : Fin 128) : 128 * (t.val / 8) + r.val < 2048 := by have := point_lt t; omega
theorem col_lt (j : Fin 256) : 256 * (t.val % 8) + j.val < 2048 := by omega

/-- Window 0 at point `t`: the 128 × 256 block of the first argument at block row `t / 8`, block column `t % 8`. -/
theorem blk0 (r : Fin 128) (j : Fin 256) :
    iblk m c 0 t (ix2 r j) = m ((c : Thread nD τ).loc main_arg0) (ix2 ⟨128 * (t.val / 8) + r.val, row_lt t r⟩ ⟨256 * (t.val % 8) + j.val, col_lt t j⟩) := by
  obtain ⟨e0, e1, -⟩ := index_facts t
  rw [← V_main_arg0 m c]
  show V m c main_arg0 (((cfg0.win 0).blk t).view.emb (ix2 r j)) = V m c main_arg0 _
  refine congrArg (V m c main_arg0) ?_
  funext a; apply Fin.ext
  match a with
  | ⟨0, _⟩ => show win0_0.index t (0 : Fin 2) * 128 + 1 * r.val = 128 * (t.val / 8) + r.val; omega
  | ⟨1, _⟩ => show win0_0.index t (1 : Fin 2) * 256 + 1 * j.val = 256 * (t.val % 8) + j.val; omega

/-- Window 1 at point `t`: the 256 × 64 block of the second argument at block row `t % 8`. -/
theorem blk1 (j : Fin 256) (k : Fin 64) :
    iblk m c 1 t (ix2 j k) = m ((c : Thread nD τ).loc main_arg1) (ix2 ⟨256 * (t.val % 8) + j.val, col_lt t j⟩ k) := by
  obtain ⟨-, -, e0, e1, -⟩ := index_facts t
  rw [← V_main_arg1 m c]
  show V m c main_arg1 (((cfg0.win 1).blk t).view.emb (ix2 j k)) = V m c main_arg1 _
  refine congrArg (V m c main_arg1) ?_
  funext a; apply Fin.ext
  match a with
  | ⟨0, _⟩ => show win0_1.index t (0 : Fin 2) * 256 + 1 * j.val = 256 * (t.val % 8) + j.val; omega
  | ⟨1, _⟩ => show win0_1.index t (1 : Fin 2) * 64 + 1 * k.val = k.val; omega

/-- Window 3 at any point: the whole third argument. -/
theorem blk3 (q : Fin 256) (o : Fin 128) :
    iblk m c 3 t (ix2 q o) = m ((c : Thread nD τ).loc main_arg2) (ix2 q o) := by
  obtain ⟨-, -, -, -, -, -, e0, e1, -⟩ := index_facts t
  rw [← V_main_arg2 m c]
  show V m c main_arg2 (((cfg0.win 3).blk t).view.emb (ix2 q o)) = V m c main_arg2 _
  refine congrArg (V m c main_arg2) ?_
  funext a; apply Fin.ext
  match a with
  | ⟨0, _⟩ => show win0_3.index t (0 : Fin 2) * 256 + 1 * q.val = q.val; omega
  | ⟨1, _⟩ => show win0_3.index t (1 : Fin 2) * 128 + 1 * o.val = o.val; omega

/-- The array window 2 reads is the second argument transposed. -/
theorem transposed_eq : (V m c main_v1 : S64x2048.Idx → EReal)
    = transpose S64x2048 [1, 0] (m ((c : Thread nD τ).loc main_arg1) : S2048x64.Idx → EReal) transposes_S2048x64_S64x2048_1_0 := by
  dsimp only [Gen.V, Gen.hostOps0]; after_results

/-- The array window 4 reads is the fourth argument as one row. -/
theorem row_eq : (V m c main_v0 : S1x128.Idx → EReal)
    = shapeCast S1x128 (m ((c : Thread nD τ).loc main_arg3) : S128.Idx → EReal) shapeCasts_S128_S1x128 := by
  dsimp only [Gen.V, Gen.hostOps0]; after_results; rfl

/-- Window 2 at point `t`: the 64 × 256 block, at block column `t % 8`, of the second argument's transpose: entry `(k, j)` is the second
    argument's entry `(256 · (t % 8) + j, k)`. -/
theorem blk2 (k : Fin 64) (j : Fin 256) :
    iblk m c 2 t (ix2 k j) = m ((c : Thread nD τ).loc main_arg1) (ix2 ⟨256 * (t.val % 8) + j.val, col_lt t j⟩ k) := by
  obtain ⟨-, -, -, -, e0, e1, -⟩ := index_facts t
  have hi : ((cfg0.win 2).blk t).view.emb (ix2 k j) = (ix2 k ⟨256 * (t.val % 8) + j.val, col_lt t j⟩ : S64x2048.Idx) := by
    funext a; apply Fin.ext
    match a with
    | ⟨0, _⟩ => show win0_2.index t (0 : Fin 2) * 64 + 1 * k.val = k.val; omega
    | ⟨1, _⟩ => show win0_2.index t (1 : Fin 2) * 256 + 1 * j.val = 256 * (t.val % 8) + j.val; omega
  show V m c main_v1 (((cfg0.win 2).blk t).view.emb (ix2 k j)) = _
  refine (congrArg (V m c main_v1) hi).trans ?_
  refine (congrFun (transposed_eq m c) _).trans ?_
  exact transpose_ix2_apply _ _ k ⟨256 * (t.val % 8) + j.val, col_lt t j⟩

/-- Window 4 at any point: the fourth argument as one row. -/
theorem blk4 (o : Fin 128) :
    iblk m c 4 t (ix2 (0 : Fin 1) o) = m ((c : Thread nD τ).loc main_arg3) (ix1 o) := by
  obtain ⟨-, -, -, -, -, -, -, -, e0, e1, -⟩ := index_facts t
  have hi : ((cfg0.win 4).blk t).view.emb (ix2 (0 : Fin 1) o) = (ix2 (0 : Fin 1) o : S1x128.Idx) := by
    funext a; apply Fin.ext
    match a with
    | ⟨0, _⟩ => show win0_4.index t (0 : Fin 2) * 1 + 1 * (0 : Fin 1).val = (0 : Fin 1).val; omega
    | ⟨1, _⟩ => show win0_4.index t (1 : Fin 2) * 128 + 1 * o.val = o.val; omega
  show V m c main_v0 (((cfg0.win 4).blk t).view.emb (ix2 (0 : Fin 1) o)) = _
  refine (congrArg (V m c main_v0) hi).trans ?_
  refine (congrFun (row_eq m c) _).trans ?_
  exact shapeCast_a_1a_apply _ _ (0 : Fin 1) o

/-- An index of the result is in point `t`'s block of window 5 iff each coordinate is in the block's range on its axis. -/
theorem mem_blk5 (i : S2048x128.Idx) :
    i ∈ ((cfg0.win 5).blk t).view.set ↔ ∀ a : Fin 2, win0_5.index t a * S128x128.size a ≤ (i a).val ∧ (i a).val < win0_5.index t a * S128x128.size a + S128x128.size a := by
  show i ∈ ((View.whole main_v2).slice (win0_5.rect t)).set ↔ _
  rw [View.set_slice_whole, Rect.mem_set_unit]
  exact Iff.rfl

/-- Every index of the result is in the block of a point that writes back: row `p` is in block row `p / 128`, written at
    the point `8 · (p / 128) + 7`. -/
theorem cover5 (i : S2048x128.Idx) : ∃ t : Fin cfg0.N, (cfg0.win 5).flush t = true ∧ i ∈ ((cfg0.win 5).blk t).view.set := by
  have hi0 : (i 0).val < 2048 := (i 0).isLt
  have hi1 : (i 1).val < 128 := (i 1).isLt
  have hN : 8 * ((i 0).val / 128) + 7 < cfg0.N := lt_of_lt_of_eq (by omega : 8 * ((i 0).val / 128) + 7 < 128) N_0.symm
  obtain ⟨-, -, -, -, -, -, -, -, -, -, e0, e1⟩ := index_facts ⟨8 * ((i 0).val / 128) + 7, hN⟩
  have e0' : win0_5.index ⟨8 * ((i 0).val / 128) + 7, hN⟩ (0 : Fin 2) = (8 * ((i 0).val / 128) + 7) / 8 := e0
  refine ⟨⟨8 * ((i 0).val / 128) + 7, hN⟩, (flush0_5 _).2 (by show (8 * ((i 0).val / 128) + 7) % 8 = 7; omega), ?_⟩
  rw [mem_blk5]
  intro a
  match a with
  | ⟨0, _⟩ =>
    show win0_5.index ⟨8 * ((i 0).val / 128) + 7, hN⟩ (0 : Fin 2) * 128 ≤ (i 0).val
      ∧ (i 0).val < win0_5.index ⟨8 * ((i 0).val / 128) + 7, hN⟩ (0 : Fin 2) * 128 + 128
    omega
  | ⟨1, _⟩ =>
    show win0_5.index ⟨8 * ((i 0).val / 128) + 7, hN⟩ (1 : Fin 2) * 128 ≤ (i 1).val
      ∧ (i 1).val < win0_5.index ⟨8 * ((i 0).val / 128) + 7, hN⟩ (1 : Fin 2) * 128 + 128
    omega

/-- THE RESULT ARRAY after the run is `G`, when every point that writes back writes block row `t / 8` of `G`. -/
theorem final (G : S2048x128.Idx → EReal)
    (hG : ∀ t : Fin cfg0.N, t.val % 8 = 7 → ∀ (r : Fin 128) (o : Fin 128),
      (dats m 0 c).flushed 5 t (ix2 r o) = G (ix2 ⟨128 * (t.val / 8) + r.val, row_lt t r⟩ o)) :
    (dats m 0 c).arrAt 5 cfg0.N = G := by
  refine (dats m 0 c).arrAt_eq_of_cover 5 G (fun t hf => ?_) cover5
  have h7 : t.val % 8 = 7 := (flush0_5 t).1 hf
  obtain ⟨-, -, -, -, -, -, -, -, -, -, e0, e1⟩ := index_facts t
  funext y
  obtain ⟨r, o, rfl⟩ : ∃ (r : Fin 128) (o : Fin 128), y = ix2 r o := ⟨y 0, y 1, eq_ix2 y⟩
  refine (hG t h7 r o).trans ?_
  show G _ = G (((cfg0.win 5).blk t).view.emb (ix2 r o))
  refine congrArg G ?_
  funext a; apply Fin.ext
  match a with
  | ⟨0, _⟩ => show 128 * (t.val / 8) + r.val = win0_5.index t (0 : Fin 2) * 128 + 1 * r.val; omega
  | ⟨1, _⟩ => show o.val = win0_5.index t (1 : Fin 2) * 128 + 1 * o.val; omega

end Cert.KerBlocks

end
-- ==== Proof.KerOut.lean ====
/-
  The last tile's closing arithmetic, read against the specification.

  When the last tile of the `q`-th block of 128 rows is reached, the four accumulators hold, for each row `r` of the
  block and each column `k`, the sum, the sum of squares, the supremum and the infimum of the 2048 products of row
  `128 q + r` of the first table with column `k` of the second. The closing arithmetic lays the mean, the supremum, the
  infimum and the standard deviation (from the raw second moment, clamped at zero) side by side into a row of 256
  entries and applies the last layer to it. Column by column that row is the row `128 q + r` of the specification's
  side-by-side table: both are a choice among the same four bands of 64 columns, and in each band the accumulator's
  entry is the specification's by hypothesis. Hence the output at `(r, o)` is the specification's result at
  `(128 q + r, o)`.
-/
import proofs.«146669_j9036611191395_2_alg».proof.Proof.Spec
import proofs.«146669_j9036611191395_2_alg».proof.Proof.LibCat4
import proofs.«146669_j9036611191395_2_alg».proof.Proof.KerPay
import Idealize.ShloMosaic.Lib.ValueIdx

open scoped BigOperators

noncomputable section

namespace Cert.KerOut

open Idealize.ShloMosaic Idealize.ShloMosaic.ValueIdx Cert.KernelIdeal Cert.Spec

/-- Row `r` of the `q`-th block of 128 rows. -/
def row (q : ℕ) (hq : q < 16) (r : Fin 128) : Fin 2048 := ⟨128 * q + r.val, by have := r.isLt; omega⟩

/-- The mean a block's sum accumulator gives is the specification's mean at the block's rows. -/
theorem meanOf_eq (A : Mat 2048 2048) (B : Mat 2048 64) (q : ℕ) (hq : q < 16) (s0 : FVec Ideal S128x64 .f32)
    (h0 : ∀ i k, s0 (ix2 i k) = total A B (row q hq i) k) (i : Fin 128) (j : Fin 64) :
    Cert.KerPay.meanOf s0 i j = mean A B (row q hq i) j := by
  show s0 (ix2 i j) * ((1 / 2048 : ℝ) : EReal) = total A B (row q hq i) j * ((1 / 2048 : ℝ) : EReal)
  rw [h0]

/-- The standard deviation a block's sum and sum-of-squares accumulators give is the specification's, in its raw
    second-moment spelling, at the block's rows. -/
theorem spreadOf_eq (A : Mat 2048 2048) (B : Mat 2048 64) (q : ℕ) (hq : q < 16) (s0 s1 : FVec Ideal S128x64 .f32)
    (h0 : ∀ i k, s0 (ix2 i k) = total A B (row q hq i) k) (h1 : ∀ i k, s1 (ix2 i k) = totalSq A B (row q hq i) k)
    (i : Fin 128) (j : Fin 64) :
    Cert.KerPay.spreadOf s0 s1 i j = spreadRaw A B (row q hq i) j := by
  show Ideal.sqrt (max ((s1 (ix2 i j) - s0 (ix2 i j) * s0 (ix2 i j) * ((1 / 2048 : ℝ) : EReal)) * ((1 / 2047 : ℝ) : EReal)) 0)
    = Ideal.sqrt (max ((totalSq A B (row q hq i) j - total A B (row q hq i) j * total A B (row q hq i) j * ((1 / 2048 : ℝ) : EReal))
        * ((1 / 2047 : ℝ) : EReal)) 0)
  rw [h0, h1]

/-- Column by column, the row of 256 entries the accumulators give is the specification's side-by-side row. -/
theorem column_eq (A : Mat 2048 2048) (B : Mat 2048 64) (q : ℕ) (hq : q < 16)
    (s0 s1 s2 s3 : FVec Ideal S128x64 .f32)
    (h0 : ∀ i k, s0 (ix2 i k) = total A B (row q hq i) k) (h1 : ∀ i k, s1 (ix2 i k) = totalSq A B (row q hq i) k)
    (h2 : ∀ i k, s2 (ix2 i k) = top A B (row q hq i) k) (h3 : ∀ i k, s3 (ix2 i k) = bot A B (row q hq i) k)
    (r : Fin 128) (q' : Fin 256) :
    Cert.Cat4.sideBySide (Cert.KerPay.meanOf s0) (fun i j => s2 (ix2 i j)) (fun i j => s3 (ix2 i j)) (Cert.KerPay.spreadOf s0 s1) r q'
      = side4 (mean A B) (top A B) (bot A B) (spreadRaw A B) (row q hq r) q' := by
  unfold Cert.Cat4.sideBySide side4
  by_cases c0 : q'.val < 64
  · rw [dif_pos c0, dif_pos c0]
    exact meanOf_eq A B q hq s0 h0 _ _
  · rw [dif_neg c0, dif_neg c0]
    by_cases c1 : q'.val < 128
    · rw [dif_pos c1, dif_pos c1]
      exact h2 _ _
    · rw [dif_neg c1, dif_neg c1]
      by_cases c2 : q'.val < 192
      · rw [dif_pos c2, dif_pos c2]
        exact h3 _ _
      · rw [dif_neg c2, dif_neg c2]
        exact spreadOf_eq A B q hq s0 s1 h0 h1 _ _

/-- If the four accumulators of row block `q` hold that block's sums, sums of squares, suprema and infima of the
    products, and the weight and bias blocks are the third and fourth arguments, the last tile's output at `(r, o)`
    is the result at row `128 q + r`. -/
theorem block_eq (A : Mat 2048 2048) (B : Mat 2048 64) (W : Mat 256 128) (b : Fin 128 → EReal) (q : ℕ) (hq : q < 16)
    (s0 s1 s2 s3 : FVec Ideal S128x64 .f32) (w : FVec Ideal S256x128 .f32) (bb : FVec Ideal S1x128 .f32)
    (h0 : ∀ i k, s0 (ix2 i k) = total A B (row q hq i) k) (h1 : ∀ i k, s1 (ix2 i k) = totalSq A B (row q hq i) k)
    (h2 : ∀ i k, s2 (ix2 i k) = top A B (row q hq i) k) (h3 : ∀ i k, s3 (ix2 i k) = bot A B (row q hq i) k)
    (hw : ∀ q' o, w (ix2 q' o) = W q' o) (hb : ∀ o, bb (ix2 (0 : Fin 1) o) = b o) (r o : Fin 128) :
    Ideal.tanh ((∑ q' : Fin 256, Cert.Cat4.sideBySide (Cert.KerPay.meanOf s0) (fun i j => s2 (ix2 i j)) (fun i j => s3 (ix2 i j)) (Cert.KerPay.spreadOf s0 s1) r q' * w (ix2 q' o))
        + bb (ix2 (0 : Fin 1) o))
      = resultRaw A B W b (ix2 (row q hq r) o) := by
  unfold resultRaw
  rw [layerArr_ix2]
  unfold layer
  refine congrArg Ideal.tanh (congrArg₂ (· + ·) ?_ (hb o))
  refine Finset.sum_congr rfl fun q' _ => ?_
  rw [column_eq A B q hq s0 s1 s2 s3 h0 h1 h2 h3 r q', hw]

end Cert.KerOut

end
-- ==== Proof.KerAcc.lean ====
/-
  What the four accumulators hold after each tile.

  Fix a block `q` of 128 rows, a row `r` of it and a column `k`, and let `f n` be the product of the first argument at
  (128 q + r, n) and the second at (n, k), for the 2048 positions `n`. The kernel walks the positions in eight tiles of
  256; at tile `j` its blocks hold the positions `256 j + l`. After tile `j` the sum accumulator holds the sum of
  `f` over the positions below `256 (j + 1)`, the squares accumulator the same for `(a·a)·(b·b)`, the maximum
  accumulator the supremum and the minimum accumulator the infimum of `f` over those positions: each tile extends the
  prefix by its own 256 positions. After the eighth tile the prefix is the whole row.
-/
import proofs.«146669_j9036611191395_2_alg».proof.Proof.Gen.KernelIdeal.Value
import proofs.«146669_j9036611191395_2_alg».proof.Proof.KerStep
import proofs.«146669_j9036611191395_2_alg».proof.Proof.KerBlocks
import proofs.«146669_j9036611191395_2_alg».proof.Proof.KerPay
import proofs.«146669_j9036611191395_2_alg».proof.Proof.KerOut
import proofs.«146669_j9036611191395_2_alg».proof.Proof.LibTiles
import proofs.«146669_j9036611191395_2_alg».proof.Proof.LibTileMin
import proofs.«146669_j9036611191395_2_alg».proof.Proof.Spec

open scoped BigOperators

noncomputable section

namespace Cert.KerAcc

open Cert.KernelIdeal Cert.KernelIdeal.Gen Cert.KernelIdeal.Value Idealize.ShloMosaic Idealize.ShloMosaic.ValueIdx
  Idealize.ShloMosaic.TcCoe Idealize.SL.Sem Cert.Spec Cert.KerOut

variable (m : (ℓ : Loc nD τ sig) → Buf (Elt Ideal) ℓ) (c : Dev nD)

/-- The first argument as a table. -/
abbrev tabA : Mat 2048 2048 := mat (m ((c : Thread nD τ).loc main_arg0))
/-- The second argument as a table. -/
abbrev tabB : Mat 2048 64 := mat (m ((c : Thread nD τ).loc main_arg1))

/-- Position `l` of tile `j`. -/
def pos (j : ℕ) (hj : j < 8) (l : Fin 256) : Fin 2048 := ⟨256 * j + l.val, by have := l.isLt; omega⟩

/-- The squared product at a position, each square taken factor by factor. -/
def termSq (A : Mat 2048 2048) (B : Mat 2048 64) (p : Fin 2048) (k : Fin 64) (n : Fin 2048) : EReal := (A p n * A p n) * (B n k * B n k)

/-! ## A tile's blocks are the row's entries at the tile's positions -/

section tile

variable (t : Fin cfg0.N) (q j : ℕ) (hq : q < 16) (hj : j < 8) (ht : t.val = 8 * q + j)
include hj ht

theorem tile0 (r : Fin 128) (l : Fin 256) : iblk m c 0 t (ix2 r l) = tabA m c (row q hq r) (pos j hj l) := by
  refine (Cert.KerBlocks.blk0 m c t r l).trans ?_
  show m ((c : Thread nD τ).loc main_arg0) (ix2 _ _) = m ((c : Thread nD τ).loc main_arg0) (ix2 (row q hq r) (pos j hj l))
  refine congrArg _ (congrArg₂ ix2 (Fin.ext ?_) (Fin.ext ?_))
  · show 128 * (t.val / 8) + r.val = 128 * q + r.val
    omega
  · show 256 * (t.val % 8) + l.val = 256 * j + l.val
    omega

theorem tile1 (l : Fin 256) (k : Fin 64) : iblk m c 1 t (ix2 l k) = tabB m c (pos j hj l) k := by
  refine (Cert.KerBlocks.blk1 m c t l k).trans ?_
  show m ((c : Thread nD τ).loc main_arg1) (ix2 _ _) = m ((c : Thread nD τ).loc main_arg1) (ix2 (pos j hj l) k)
  refine congrArg _ (congrArg₂ ix2 (Fin.ext ?_) rfl)
  show 256 * (t.val % 8) + l.val = 256 * j + l.val
  omega

theorem tile2 (k : Fin 64) (l : Fin 256) : iblk m c 2 t (ix2 k l) = tabB m c (pos j hj l) k := by
  refine (Cert.KerBlocks.blk2 m c t k l).trans ?_
  show m ((c : Thread nD τ).loc main_arg1) (ix2 _ _) = m ((c : Thread nD τ).loc main_arg1) (ix2 (pos j hj l) k)
  refine congrArg _ (congrArg₂ ix2 (Fin.ext ?_) rfl)
  show 256 * (t.val % 8) + l.val = 256 * j + l.val
  omega

/-! ## One tile extends each prefix -/

theorem sum_step (acc : FVec Ideal S128x64 .f32) (r : Fin 128) (k : Fin 64)
    (hacc : acc (ix2 r k) = Cert.Tiles.psum (term (tabA m c) (tabB m c) (row q hq r) k) (256 * j)) :
    k0_pay8 (F := Ideal) (iblk m c 0 t) (iblk m c 1 t) acc (ix2 r k)
      = Cert.Tiles.psum (term (tabA m c) (tabB m c) (row q hq r) k) (256 * (j + 1)) := by
  refine (Cert.KerPay.pay8_apply _ _ _ r k).trans ?_
  rw [hacc]
  have e : 256 * j + 256 = 256 * (j + 1) := by ring
  rw [← e]
  refine Cert.Tiles.psum_add (term (tabA m c) (tabB m c) (row q hq r) k) (256 * j) (by omega) _ (fun l => ?_)
  beta_reduce
  rw [tile0 m c t q j hq hj ht r l, tile1 m c t q j hj ht l k]
  rfl

theorem sq_step (acc : FVec Ideal S128x64 .f32) (r : Fin 128) (k : Fin 64)
    (hacc : acc (ix2 r k) = Cert.Tiles.psum (termSq (tabA m c) (tabB m c) (row q hq r) k) (256 * j)) :
    k0_pay9 (F := Ideal) (iblk m c 0 t) (iblk m c 1 t) acc (ix2 r k)
      = Cert.Tiles.psum (termSq (tabA m c) (tabB m c) (row q hq r) k) (256 * (j + 1)) := by
  refine (Cert.KerPay.pay9_apply _ _ _ r k).trans ?_
  rw [hacc]
  have e : 256 * j + 256 = 256 * (j + 1) := by ring
  rw [← e]
  refine Cert.Tiles.psum_add (termSq (tabA m c) (tabB m c) (row q hq r) k) (256 * j) (by omega) _ (fun l => ?_)
  beta_reduce
  rw [tile0 m c t q j hq hj ht r l, tile1 m c t q j hj ht l k]
  rfl

theorem max_step (acc : FVec Ideal S128x64 .f32) (r : Fin 128) (k : Fin 64)
    (hacc : acc (ix2 r k) = Cert.Tiles.above (term (tabA m c) (tabB m c) (row q hq r) k) (256 * j)) :
    k0_pay1 (F := Ideal) (k0_pay11 (iblk m c 0 t) (iblk m c 2 t) acc) (ix2 r k)
      = Cert.Tiles.above (term (tabA m c) (tabB m c) (row q hq r) k) (256 * (j + 1)) := by
  refine (Cert.KerPay.pay11_apply _ _ _ r k).trans ?_
  rw [hacc]
  have e : 256 * j + 256 = 256 * (j + 1) := by ring
  rw [← e]
  refine Cert.Tiles.above_add (term (tabA m c) (tabB m c) (row q hq r) k) (256 * j) (by omega) _ (fun l => ?_)
  beta_reduce
  rw [tile0 m c t q j hq hj ht r l, tile2 m c t q j hj ht k l]
  rfl

theorem min_step (acc : FVec Ideal S128x64 .f32) (r : Fin 128) (k : Fin 64)
    (hacc : acc (ix2 r k) = Cert.TileMin.below (term (tabA m c) (tabB m c) (row q hq r) k) (256 * j)) :
    k0_pay2 (F := Ideal) (k0_pay10 (iblk m c 0 t) (iblk m c 2 t)) acc (ix2 r k)
      = Cert.TileMin.below (term (tabA m c) (tabB m c) (row q hq r) k) (256 * (j + 1)) := by
  refine (Cert.KerPay.pay2_apply _ _ _ r k).trans ?_
  rw [hacc]
  have e : 256 * j + 256 = 256 * (j + 1) := by ring
  rw [← e]
  refine Cert.TileMin.below_add (term (tabA m c) (tabB m c) (row q hq r) k) (256 * j) (by omega) _ (fun l => ?_)
  beta_reduce
  rw [tile0 m c t q j hq hj ht r l, tile2 m c t q j hj ht k l]
  rfl

end tile

/-! ## The fold over a block's tiles keeps an invariant that every tile's step keeps -/

/-- A quantity restarted from `init` at a block's first tile and stepped by `body` at every tile satisfies, after tile `j`,
    `P (j + 1)`, when `init` satisfies `P 0` and the step at tile `j` takes `P j` to `P (j + 1)`. -/
theorem accAt_inv {α : Type} (P : ℕ → α → Prop) (body : (n : ℕ) → n < cfg0.N → α → α) (init junk : α) (q : ℕ)
    (hP0 : P 0 init)
    (hstep : ∀ (j : ℕ) (_ : j < 8) (h : 8 * q + j < cfg0.N) (acc : α), P j acc → P (j + 1) (body (8 * q + j) h acc)) :
    ∀ (j : ℕ) (_ : j < 8) (h : 8 * q + j < cfg0.N),
      P (j + 1) (Pipeline.accAt (fun n h => body n h (if n % 8 = 0 then init else junk))
        (fun n h acc => body n h (if n % 8 = 0 then init else acc)) (8 * q) j h)
  | 0, hj, h => by
    rw [Pipeline.accAt_zero]
    show P 1 (body (8 * q) h (if (8 * q) % 8 = 0 then init else junk))
    rw [if_pos (Nat.mul_mod_right 8 q)]
    exact hstep 0 hj h init hP0
  | j + 1, hj, h => by
    rw [Pipeline.accAt_succ]
    show P (j + 1 + 1) (body (8 * q + (j + 1)) h (if (8 * q + (j + 1)) % 8 = 0 then init else _))
    rw [if_neg (by omega)]
    exact hstep (j + 1) hj h _ (accAt_inv P body init junk q hP0 hstep j (by omega) (Nat.lt_of_succ_lt h))

/-! ## The four accumulators after any point -/

section point

variable (t : Fin cfg0.N)

theorem tq : t.val / 8 < 16 := by have := t.isLt; have hN : cfg0.N = 128 := N_0; omega

theorem sum_at (r : Fin 128) (k : Fin 64) :
    (outsAt0 m c t.val t.isLt).2.1 (ix2 r k)
      = Cert.Tiles.psum (term (tabA m c) (tabB m c) (row (t.val / 8) (tq t) r) k) (256 * (t.val % 8 + 1)) := by
  rw [soutsAt0_0_eq m c t]
  have ea : (fun n h => scAt0_0 m c n h (VS0_0.read (Elt Ideal) VS0_0.junk))
      = (fun n h => k0_pay8 (F := Ideal) (iblk m c 0 ⟨n, h⟩) (iblk m c 1 ⟨n, h⟩) (if n % 8 = 0 then k0_pay4 (F := Ideal) else VS0_0.read (Elt Ideal) VS0_0.junk)) :=
    funext fun n => funext fun h => Cert.KerStep.scAt0_0_eq m c n h _
  have eg : scAt0_0 m c = (fun n h acc => k0_pay8 (F := Ideal) (iblk m c 0 ⟨n, h⟩) (iblk m c 1 ⟨n, h⟩) (if n % 8 = 0 then k0_pay4 (F := Ideal) else acc)) :=
    funext fun n => funext fun h => funext fun acc => Cert.KerStep.scAt0_0_eq m c n h acc
  rw [ea, eg]
  exact accAt_inv (fun j (acc : Vec Ideal S128x64 .f32) => ∀ (r : Fin 128) (k : Fin 64),
      acc (ix2 r k) = Cert.Tiles.psum (term (tabA m c) (tabB m c) (row (t.val / 8) (tq t) r) k) (256 * j))
    (fun n h acc => k0_pay8 (F := Ideal) (iblk m c 0 ⟨n, h⟩) (iblk m c 1 ⟨n, h⟩) acc) _ _ (t.val / 8)
    (fun r k => by rw [Cert.KerPay.pay4_apply, Nat.mul_zero, Cert.Tiles.psum_zero])
    (fun j hj h acc hacc r k => sum_step m c ⟨8 * (t.val / 8) + j, h⟩ (t.val / 8) j (tq t) hj rfl acc r k (hacc r k))
    (t.val % 8) (Nat.mod_lt _ (by norm_num)) _ r k

theorem sq_at (r : Fin 128) (k : Fin 64) :
    (outsAt0 m c t.val t.isLt).2.2.1 (ix2 r k)
      = Cert.Tiles.psum (termSq (tabA m c) (tabB m c) (row (t.val / 8) (tq t) r) k) (256 * (t.val % 8 + 1)) := by
  rw [soutsAt0_1_eq m c t]
  have ea : (fun n h => scAt0_1 m c n h (VS0_1.read (Elt Ideal) VS0_1.junk))
      = (fun n h => k0_pay9 (F := Ideal) (iblk m c 0 ⟨n, h⟩) (iblk m c 1 ⟨n, h⟩) (if n % 8 = 0 then k0_pay5 (F := Ideal) else VS0_1.read (Elt Ideal) VS0_1.junk)) :=
    funext fun n => funext fun h => Cert.KerStep.scAt0_1_eq m c n h _
  have eg : scAt0_1 m c = (fun n h acc => k0_pay9 (F := Ideal) (iblk m c 0 ⟨n, h⟩) (iblk m c 1 ⟨n, h⟩) (if n % 8 = 0 then k0_pay5 (F := Ideal) else acc)) :=
    funext fun n => funext fun h => funext fun acc => Cert.KerStep.scAt0_1_eq m c n h acc
  rw [ea, eg]
  exact accAt_inv (fun j (acc : Vec Ideal S128x64 .f32) => ∀ (r : Fin 128) (k : Fin 64),
      acc (ix2 r k) = Cert.Tiles.psum (termSq (tabA m c) (tabB m c) (row (t.val / 8) (tq t) r) k) (256 * j))
    (fun n h acc => k0_pay9 (F := Ideal) (iblk m c 0 ⟨n, h⟩) (iblk m c 1 ⟨n, h⟩) acc) _ _ (t.val / 8)
    (fun r k => by rw [Cert.KerPay.pay5_apply, Nat.mul_zero, Cert.Tiles.psum_zero])
    (fun j hj h acc hacc r k => sq_step m c ⟨8 * (t.val / 8) + j, h⟩ (t.val / 8) j (tq t) hj rfl acc r k (hacc r k))
    (t.val % 8) (Nat.mod_lt _ (by norm_num)) _ r k

theorem max_at (r : Fin 128) (k : Fin 64) :
    (outsAt0 m c t.val t.isLt).2.2.2.1 (ix2 r k)
      = Cert.Tiles.above (term (tabA m c) (tabB m c) (row (t.val / 8) (tq t) r) k) (256 * (t.val % 8 + 1)) := by
  rw [soutsAt0_2_eq m c t]
  have ea : (fun n h => scAt0_2 m c n h (VS0_2.read (Elt Ideal) VS0_2.junk))
      = (fun n h => k0_pay1 (F := Ideal) (k0_pay11 (iblk m c 0 ⟨n, h⟩) (iblk m c 2 ⟨n, h⟩) (if n % 8 = 0 then k0_pay6 (F := Ideal) else VS0_2.read (Elt Ideal) VS0_2.junk))) :=
    funext fun n => funext fun h => Cert.KerStep.scAt0_2_eq m c n h _
  have eg : scAt0_2 m c = (fun n h acc => k0_pay1 (F := Ideal) (k0_pay11 (iblk m c 0 ⟨n, h⟩) (iblk m c 2 ⟨n, h⟩) (if n % 8 = 0 then k0_pay6 (F := Ideal) else acc))) :=
    funext fun n => funext fun h => funext fun acc => Cert.KerStep.scAt0_2_eq m c n h acc
  rw [ea, eg]
  exact accAt_inv (fun j (acc : Vec Ideal S128x64 .f32) => ∀ (r : Fin 128) (k : Fin 64),
      acc (ix2 r k) = Cert.Tiles.above (term (tabA m c) (tabB m c) (row (t.val / 8) (tq t) r) k) (256 * j))
    (fun n h acc => k0_pay1 (F := Ideal) (k0_pay11 (iblk m c 0 ⟨n, h⟩) (iblk m c 2 ⟨n, h⟩) acc)) _ _ (t.val / 8)
    (fun r k => by rw [Cert.KerPay.pay6_apply, Nat.mul_zero, Cert.Tiles.above_zero])
    (fun j hj h acc hacc r k => max_step m c ⟨8 * (t.val / 8) + j, h⟩ (t.val / 8) j (tq t) hj rfl acc r k (hacc r k))
    (t.val % 8) (Nat.mod_lt _ (by norm_num)) _ r k

theorem min_at (r : Fin 128) (k : Fin 64) :
    (outsAt0 m c t.val t.isLt).2.2.2.2 (ix2 r k)
      = Cert.TileMin.below (term (tabA m c) (tabB m c) (row (t.val / 8) (tq t) r) k) (256 * (t.val % 8 + 1)) := by
  rw [soutsAt0_3_eq m c t]
  have ea : (fun n h => scAt0_3 m c n h (VS0_3.read (Elt Ideal) VS0_3.junk))
      = (fun n h => k0_pay2 (F := Ideal) (k0_pay10 (iblk m c 0 ⟨n, h⟩) (iblk m c 2 ⟨n, h⟩)) (if n % 8 = 0 then k0_pay7 (F := Ideal) else VS0_3.read (Elt Ideal) VS0_3.junk)) :=
    funext fun n => funext fun h => Cert.KerStep.scAt0_3_eq m c n h _
  have eg : scAt0_3 m c = (fun n h acc => k0_pay2 (F := Ideal) (k0_pay10 (iblk m c 0 ⟨n, h⟩) (iblk m c 2 ⟨n, h⟩)) (if n % 8 = 0 then k0_pay7 (F := Ideal) else acc)) :=
    funext fun n => funext fun h => funext fun acc => Cert.KerStep.scAt0_3_eq m c n h acc
  rw [ea, eg]
  exact accAt_inv (fun j (acc : Vec Ideal S128x64 .f32) => ∀ (r : Fin 128) (k : Fin 64),
      acc (ix2 r k) = Cert.TileMin.below (term (tabA m c) (tabB m c) (row (t.val / 8) (tq t) r) k) (256 * j))
    (fun n h acc => k0_pay2 (F := Ideal) (k0_pay10 (iblk m c 0 ⟨n, h⟩) (iblk m c 2 ⟨n, h⟩)) acc) _ _ (t.val / 8)
    (fun r k => by rw [Cert.KerPay.pay7_apply, Nat.mul_zero, Cert.TileMin.below_zero])
    (fun j hj h acc hacc r k => min_step m c ⟨8 * (t.val / 8) + j, h⟩ (t.val / 8) j (tq t) hj rfl acc r k (hacc r k))
    (t.val % 8) (Nat.mod_lt _ (by norm_num)) _ r k

/-! ## After a block's last tile: the whole row -/

variable (h7 : t.val % 8 = 7)
include h7

theorem total_at (r : Fin 128) (k : Fin 64) :
    (outsAt0 m c t.val t.isLt).2.1 (ix2 r k) = total (tabA m c) (tabB m c) (row (t.val / 8) (tq t) r) k := by
  rw [sum_at m c t r k, h7]
  exact Cert.Tiles.psum_of_le _ (by norm_num)

theorem totalSq_at (r : Fin 128) (k : Fin 64) :
    (outsAt0 m c t.val t.isLt).2.2.1 (ix2 r k) = totalSq (tabA m c) (tabB m c) (row (t.val / 8) (tq t) r) k := by
  rw [sq_at m c t r k, h7]
  exact Cert.Tiles.psum_of_le _ (by norm_num)

theorem top_at (r : Fin 128) (k : Fin 64) :
    (outsAt0 m c t.val t.isLt).2.2.2.1 (ix2 r k) = top (tabA m c) (tabB m c) (row (t.val / 8) (tq t) r) k := by
  rw [max_at m c t r k, h7]
  exact Cert.Tiles.above_of_le _ (by norm_num)

theorem bot_at (r : Fin 128) (k : Fin 64) :
    (outsAt0 m c t.val t.isLt).2.2.2.2 (ix2 r k) = bot (tabA m c) (tabB m c) (row (t.val / 8) (tq t) r) k := by
  rw [min_at m c t r k, h7]
  exact Cert.TileMin.below_of_le _ (by norm_num)

end point

end Cert.KerAcc

end
-- ==== Proof.KerSide.lean ====
/-
  The kernel's result array.

  At the last tile of a block of 128 rows the output block is computed from the four accumulators as that very tile has
  just updated them, which by then hold the whole rows' sums, sums of squares, suprema and infima. So the block written
  back is the result — with the standard deviation taken from the raw second moment, clamped at zero — at the block's
  rows. The sixteen blocks written back, one per block of rows, cover the 2048 rows, so the array after the run is that
  result everywhere.
-/
import proofs.«146669_j9036611191395_2_alg».proof.Proof.Gen.KernelIdeal.Value
import proofs.«146669_j9036611191395_2_alg».proof.Proof.KerPiecesC
import proofs.«146669_j9036611191395_2_alg».proof.Proof.KerPay
import proofs.«146669_j9036611191395_2_alg».proof.Proof.KerAcc
import proofs.«146669_j9036611191395_2_alg».proof.Proof.KerOut
import proofs.«146669_j9036611191395_2_alg».proof.Proof.KerBlocks
import proofs.«146669_j9036611191395_2_alg».proof.Proof.Spec

noncomputable section

namespace Cert.KerSide

open Cert.KernelIdeal Cert.KernelIdeal.Gen Cert.KernelIdeal.Value Idealize.ShloMosaic Idealize.ShloMosaic.ValueIdx
  Idealize.ShloMosaic.TcCoe Idealize.SL.Sem Cert.Spec Cert.KerOut Cert.KerAcc

variable (m : (ℓ : Loc nD τ sig) → Buf (Elt Ideal) ℓ) (c : Dev nD)

/-- The third argument as a table. -/
abbrev tabW : Mat 256 128 := mat (m ((c : Thread nD τ).loc main_arg2))
/-- The fourth argument read at its coordinate. -/
abbrev vecB : Fin 128 → EReal := vec (m ((c : Thread nD τ).loc main_arg3))

/-- At a block's last tile the output block is the closing arithmetic of that tile's own four accumulators. -/
theorem out_at (t : Fin cfg0.N) (h0 : ¬t.val % 8 = 0) (h7 : t.val % 8 = 7) :
    (outsAt0 m c t.val t.isLt).1
      = k0_pay3 (F := Ideal) (outsAt0 m c t.val t.isLt).2.1 (outsAt0 m c t.val t.isLt).2.2.1 (outsAt0 m c t.val t.isLt).2.1
          (outsAt0 m c t.val t.isLt).2.1 (outsAt0 m c t.val t.isLt).2.2.2.1 (outsAt0 m c t.val t.isLt).2.2.2.2
          (iblk m c 3 t) (iblk m c 4 t) := by
  rw [outsAt0_C m c t h0 h7]
  dsimp only
  rw [Cert.KerPieces.out0_C_5_eq, Cert.KerPieces.sout0_C_0_eq, Cert.KerPieces.sout0_C_1_eq, Cert.KerPieces.sout0_C_2_eq,
    Cert.KerPieces.sout0_C_3_eq]

/-- What a block's last tile writes back, at row `r` and column `o` of the block: the result at row `128 (t / 8) + r`. -/
theorem flushed_eq (t : Fin cfg0.N) (h7 : t.val % 8 = 7) (r o : Fin 128) :
    (dats m 0 c).flushed 5 t (ix2 r o)
      = resultRaw (tabA m c) (tabB m c) (tabW m c) (vecB m c) (ix2 (row (t.val / 8) (tq t) r) o) := by
  have h0 : ¬t.val % 8 = 0 := by omega
  rw [flushed5 m c t]
  show (outsAt0 m c t.val t.isLt).1 (ix2 r o) = _
  rw [out_at m c t h0 h7]
  refine (Cert.KerPay.pay3_apply _ _ _ _ _ _ r o).trans ?_
  exact Cert.KerOut.block_eq (tabA m c) (tabB m c) (tabW m c) (vecB m c) (t.val / 8) (tq t) _ _ _ _ _ _
    (total_at m c t h7) (totalSq_at m c t h7) (top_at m c t h7) (bot_at m c t h7)
    (fun q' o' => Cert.KerBlocks.blk3 m c t q' o') (fun o' => Cert.KerBlocks.blk4 m c t o') r o

/-- The result array after the run. -/
theorem final (c : Dev nD) :
    (dats m 0 c).arrAt 5 cfg0.N = resultRaw (tabA m c) (tabB m c) (tabW m c) (vecB m c) :=
  Cert.KerBlocks.final m c _ (fun t h7 r o => flushed_eq m c t h7 r o)

/-- Every weakly fair execution of the kernel's program terminates with its result array at the result of the four
    argument arrays, the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = resultRaw (mat (m ((c.tc : Thread nD τ).loc main_arg0))) (mat (m ((c.tc : Thread nD τ).loc main_arg1)))
            (mat (m ((c.tc : Thread nD τ).loc main_arg2))) (vec (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (final m c), (h c).2⟩) (run_blocks m ρ)

end Cert.KerSide

end
-- ==== Proof.lean ====
/-
  The kernel and its reference compute one function of four arrays: an adjacency-like table `adj` (2048×2048), a feature
  table (2048×64), a weight table (256×128) and a bias (128). For each row `m` and feature `k` take the 2048 products
  `adj m n · feature n k`; their mean, maximum, minimum and unbiased standard deviation fill four 2048×64 tables, which
  are laid side by side and passed through `tanh (· W + b)`.

  The reference computes the standard deviation from the centred squares, `√(∑ (p - μ)² / 2047)`. The kernel walks the
  2048 positions in eight tiles of 256, carrying the running sum, the running sum of squares, the running maximum and
  the running minimum, and at the last tile forms `√(max ((∑ p² - (∑ p)² / 2048) / 2047) 0)`, its two reciprocals being
  the named rationals 1/2048 and 1/2047. At the exact extended reals a change of float format is the identity and the
  order of a sum is immaterial, so the two programs agree as soon as the two spellings of the variance do: on real
  entries `∑ (p - μ)² = ∑ p² - (∑ p)² / N` with `μ = (∑ p) / N`, and the left side is not negative, so the clamp is
  the identity. That the entries are real is what the precondition — every input finite — gives.

  The modules: `Spec` (the function, with both spellings), `Spread` (the identity), `Finite` (finite inputs are real),
  `RefRun`, `RefMath`, `RefValue` (the reference's run and its value), `KerPieces*`, `KerStep`, `KerPay`, `KerAcc`,
  `KerBlocks`, `KerOut`, `KerSide` (the kernel's accumulators tile by tile, its blocks, and its result array),
  `Assemble` (the five claims from the two runs).
-/
import proofs.«146669_j9036611191395_2_alg».proof.Defs
import proofs.«146669_j9036611191395_2_alg».proof.Proof.Assemble
import proofs.«146669_j9036611191395_2_alg».proof.Proof.KerSide

noncomputable section

namespace Cert.Proof

open Idealize.ShloMosaic Idealize.SL.Sem

theorem claim : Cert.Claim := Cert.Assemble.claim_of (fun m ρ => Cert.KerSide.run m ρ)

end Cert.Proof

end
